-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  main_v8
-- ==== Kernel.lean ====
abbrev S16x3x512x512 : Shape := ⟨4, ![16, 3, 512, 512]⟩
abbrev S_ : Shape := ⟨0, ![]⟩
abbrev S16x3x1x512 : Shape := ⟨4, ![16, 3, 1, 512]⟩
abbrev S16x3x513x512 : Shape := ⟨4, ![16, 3, 513, 512]⟩
abbrev S16x3x514x512 : Shape := ⟨4, ![16, 3, 514, 512]⟩
abbrev S16x3x514x1 : Shape := ⟨4, ![16, 3, 514, 1]⟩
abbrev S16x3x514x513 : Shape := ⟨4, ![16, 3, 514, 513]⟩
abbrev S16x3x514x514 : Shape := ⟨4, ![16, 3, 514, 514]⟩
abbrev S48x514x514 : Shape := ⟨3, ![48, 514, 514]⟩
abbrev S1x1x1 : Shape := ⟨3, ![1, 1, 1]⟩
abbrev S1x514x514 : Shape := ⟨3, ![1, 514, 514]⟩
abbrev S1x512x512 : Shape := ⟨3, ![1, 512, 512]⟩
abbrev S1x512 : Shape := ⟨2, ![1, 512]⟩
abbrev S1x512x1 : Shape := ⟨3, ![1, 512, 1]⟩
abbrev S1x1 : Shape := ⟨2, ![1, 1]⟩

abbrev nBuf : Space → Nat
  | .hbm => 40
  | .vmem => 6
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S_, .i32⟩
  | .hbm, ⟨3, _⟩ => ⟨S16x3x1x512, .f32⟩
  | .hbm, ⟨4, _⟩ => ⟨S16x3x1x512, .f32⟩
  | .hbm, ⟨5, _⟩ => ⟨S16x3x1x512, .f32⟩
  | .hbm, ⟨6, _⟩ => ⟨S16x3x513x512, .f32⟩
  | .hbm, ⟨7, _⟩ => ⟨S16x3x1x512, .f32⟩
  | .hbm, ⟨8, _⟩ => ⟨S16x3x1x512, .f32⟩
  | .hbm, ⟨9, _⟩ => ⟨S16x3x1x512, .f32⟩
  | .hbm, ⟨10, _⟩ => ⟨S16x3x514x512, .f32⟩
  | .hbm, ⟨11, _⟩ => ⟨S16x3x514x1, .f32⟩
  | .hbm, ⟨12, _⟩ => ⟨S16x3x514x1, .f32⟩
  | .hbm, ⟨13, _⟩ => ⟨S16x3x514x1, .f32⟩
  | .hbm, ⟨14, _⟩ => ⟨S16x3x514x513, .f32⟩
  | .hbm, ⟨15, _⟩ => ⟨S16x3x514x1, .f32⟩
  | .hbm, ⟨16, _⟩ => ⟨S16x3x514x1, .f32⟩
  | .hbm, ⟨17, _⟩ => ⟨S16x3x514x1, .f32⟩
  | .hbm, ⟨18, _⟩ => ⟨S16x3x514x514, .f32⟩
  | .hbm, ⟨19, _⟩ => ⟨S48x514x514, .f32⟩
  | .hbm, ⟨20, _⟩ => ⟨S_, .i32⟩
  | .hbm, ⟨21, _⟩ => ⟨S16x3x1x512, .f32⟩
  | .hbm, ⟨22, _⟩ => ⟨S16x3x1x512, .f32⟩
  | .hbm, ⟨23, _⟩ => ⟨S16x3x1x512, .f32⟩
  | .hbm, ⟨24, _⟩ => ⟨S16x3x513x512, .f32⟩
  | .hbm, ⟨25, _⟩ => ⟨S16x3x1x512, .f32⟩
  | .hbm, ⟨26, _⟩ => ⟨S16x3x1x512, .f32⟩
  | .hbm, ⟨27, _⟩ => ⟨S16x3x1x512, .f32⟩
  | .hbm, ⟨28, _⟩ => ⟨S16x3x514x512, .f32⟩
  | .hbm, ⟨29, _⟩ => ⟨S16x3x514x1, .f32⟩
  | .hbm, ⟨30, _⟩ => ⟨S16x3x514x1, .f32⟩
  | .hbm, ⟨31, _⟩ => ⟨S16x3x514x1, .f32⟩
  | .hbm, ⟨32, _⟩ => ⟨S16x3x514x513, .f32⟩
  | .hbm, ⟨33, _⟩ => ⟨S16x3x514x1, .f32⟩
  | .hbm, ⟨34, _⟩ => ⟨S16x3x514x1, .f32⟩
  | .hbm, ⟨35, _⟩ => ⟨S16x3x514x1, .f32⟩
  | .hbm, ⟨36, _⟩ => ⟨S16x3x514x514, .f32⟩
  | .hbm, ⟨37, _⟩ => ⟨S48x514x514, .f32⟩
  | .hbm, ⟨38, _⟩ => ⟨S1x1x1, .f32⟩
  | .hbm, ⟨39, _⟩ => ⟨S_, .f32⟩
  | .local _ .vmem, ⟨0, _⟩ => ⟨S1x514x514, .f32⟩
  | .local _ .vmem, ⟨1, _⟩ => ⟨S1x514x514, .f32⟩
  | .local _ .vmem, ⟨2, _⟩ => ⟨S1x514x514, .f32⟩
  | .local _ .vmem, ⟨3, _⟩ => ⟨S1x514x514, .f32⟩
  | .local _ .vmem, ⟨4, _⟩ => ⟨S1x1x1, .f32⟩
  | .local _ .vmem, ⟨5, _⟩ => ⟨S1x1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v152 : BitVec 1 := Scalar.cmpi .eq arg0 c47_i32
  let v153 : BitVec 32 := Scalar.extui v152
  let c0_i32_79 : BitVec 32 := 0#32
  let v154 : BitVec 1 := Scalar.cmpi .ne v153 c0_i32_79
  v154

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x514x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x514x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S16x3x512x512_S16x3x1x512_0_0_0_0 : S16x3x512x512.Slices ![0, 0, 0, 0] S16x3x1x512
  slices_S16x3x512x512_S16x3x1x512_0_0_1_0 : S16x3x512x512.Slices ![0, 0, 1, 0] S16x3x1x512
  concatenates_S16x3x1x512_S16x3x512x512_S16x3x513x512_d2 : Shape.Concatenates [S16x3x1x512, S16x3x512x512] S16x3x513x512 2
  slices_S16x3x513x512_S16x3x1x512_0_0_512_0 : S16x3x513x512.Slices ![0, 0, 512, 0] S16x3x1x512
  slices_S16x3x513x512_S16x3x1x512_0_0_511_0 : S16x3x513x512.Slices ![0, 0, 511, 0] S16x3x1x512
  concatenates_S16x3x513x512_S16x3x1x512_S16x3x514x512_d2 : Shape.Concatenates [S16x3x513x512, S16x3x1x512] S16x3x514x512 2
  slices_S16x3x514x512_S16x3x514x1_0_0_0_0 : S16x3x514x512.Slices ![0, 0, 0, 0] S16x3x514x1
  slices_S16x3x514x512_S16x3x514x1_0_0_0_1 : S16x3x514x512.Slices ![0, 0, 0, 1] S16x3x514x1
  concatenates_S16x3x514x1_S16x3x514x512_S16x3x514x513_d3 : Shape.Concatenates [S16x3x514x1, S16x3x514x512] S16x3x514x513 3
  slices_S16x3x514x513_S16x3x514x1_0_0_0_512 : S16x3x514x513.Slices ![0, 0, 0, 512] S16x3x514x1
  slices_S16x3x514x513_S16x3x514x1_0_0_0_511 : S16x3x514x513.Slices ![0, 0, 0, 511] S16x3x514x1
  concatenates_S16x3x514x513_S16x3x514x1_S16x3x514x514_d3 : Shape.Concatenates [S16x3x514x513, S16x3x514x1] S16x3x514x514 3
  shapeCasts_S16x3x514x514_S48x514x514 : S16x3x514x514.ShapeCasts S48x514x514
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1x514x514_S1x512x512_0_1_1 : ∀ a, (![0, 1, 1] : Fin 3 → Nat) a + S1x512x512.size a ≤ S1x514x514.size a
  h_S1x512x512 : 0 < S1x512x512.numel
  shapeCasts_S1x512x512_S1x512x512 : S1x512x512.ShapeCasts S1x512x512
  inb_S1x514x514_S1x512x512_0_0_0 : ∀ a, (![0, 0, 0] : Fin 3 → Nat) a + S1x512x512.size a ≤ S1x514x514.size a
  natLt_1_32 : 1 < 32
  inb_S1x514x514_S1x512x512_0_0_1 : ∀ a, (![0, 0, 1] : Fin 3 → Nat) a + S1x512x512.size a ≤ S1x514x514.size a
  inb_S1x514x514_S1x512x512_0_0_2 : ∀ a, (![0, 0, 2] : Fin 3 → Nat) a + S1x512x512.size a ≤ S1x514x514.size a
  inb_S1x514x514_S1x512x512_0_1_2 : ∀ a, (![0, 1, 2] : Fin 3 → Nat) a + S1x512x512.size a ≤ S1x514x514.size a
  inb_S1x514x514_S1x512x512_0_2_2 : ∀ a, (![0, 2, 2] : Fin 3 → Nat) a + S1x512x512.size a ≤ S1x514x514.size a
  inb_S1x514x514_S1x512x512_0_2_1 : ∀ a, (![0, 2, 1] : Fin 3 → Nat) a + S1x512x512.size a ≤ S1x514x514.size a
  inb_S1x514x514_S1x512x512_0_2_0 : ∀ a, (![0, 2, 0] : Fin 3 → Nat) a + S1x512x512.size a ≤ S1x514x514.size a
  inb_S1x514x514_S1x512x512_0_1_0 : ∀ a, (![0, 1, 0] : Fin 3 → Nat) a + S1x512x512.size a ≤ S1x514x514.size a
  reduces_S1x512x512_S1x512 : S1x512x512.Reduces [2] S1x512
  shapeCasts_S1x512_S1x512x1 : S1x512.ShapeCasts S1x512x1
  reduces_S1x512x1_S1x1 : S1x512x1.Reduces [1] S1x1
  shapeCasts_S1x1_S1x1x1 : S1x1.ShapeCasts S1x1x1
  reduces_S1x1x1_S1x1 : S1x1x1.Reduces [0] S1x1
  shapeCasts_S1x1x1_S_ : S1x1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x514x514.size a ≤ S48x514x514.size a
  hwx0_0 : ∀ i : grid0.Coords, EltTy.bits .f32 = 32 ∨ (Rect.block (s := S48x514x514) S1x514x514.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x514x514.size a ≤ S48x514x514.size a
  hwx0_1 : ∀ i : grid0.Coords, EltTy.bits .f32 = 32 ∨ (Rect.block (s := S48x514x514) S1x514x514.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S1x1x1.size a
  hwx0_2 : ∀ i : grid0.Coords, EltTy.bits .f32 = 32 ∨ (Rect.block (s := S1x1x1) S1x1x1.size (cc0_transform_2 i) (hinb0_2 i)).WholeWords (EltTy.packing .f32)

variable [Facts₀]

abbrev win0_0 : Pipeline.Window sig grid0 :=
  Pipeline.Window.ofSpec (Memref.whole main_v1) S1x514x514.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x514x514.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x3x512x512 : Shape := ⟨4, ![16, 3, 512, 512]⟩
abbrev S_ : Shape := ⟨0, ![]⟩
abbrev S16x3x1x512 : Shape := ⟨4, ![16, 3, 1, 512]⟩
abbrev S16x3x513x512 : Shape := ⟨4, ![16, 3, 513, 512]⟩
abbrev S16x3x514x512 : Shape := ⟨4, ![16, 3, 514, 512]⟩
abbrev S16x3x514x1 : Shape := ⟨4, ![16, 3, 514, 1]⟩
abbrev S16x3x514x513 : Shape := ⟨4, ![16, 3, 514, 513]⟩
abbrev S16x3x514x514 : Shape := ⟨4, ![16, 3, 514, 514]⟩

abbrev nBuf : Space → Nat
  | .hbm => 163
  | .vmem => 0
  | .smem => 0
  | _ => 0

abbrev hbmTy0_0 (i : Nat) : BufTy := match i % 128 with
  | 0 => ⟨S16x3x512x512, .f32⟩
  | 1 => ⟨S16x3x512x512, .f32⟩
  | 2 => ⟨S_, .i32⟩
  | 3 => ⟨S16x3x1x512, .f32⟩
  | 4 => ⟨S16x3x1x512, .f32⟩
  | 5 => ⟨S16x3x1x512, .f32⟩
  | 6 => ⟨S16x3x513x512, .f32⟩
  | 7 => ⟨S16x3x1x512, .f32⟩
  | 8 => ⟨S16x3x1x512, .f32⟩
  | 9 => ⟨S16x3x1x512, .f32⟩
  | 10 => ⟨S16x3x514x512, .f32⟩
  | 11 => ⟨S16x3x514x1, .f32⟩
  | 12 => ⟨S16x3x514x1, .f32⟩
  | 13 => ⟨S16x3x514x1, .f32⟩
  | 14 => ⟨S16x3x514x513, .f32⟩
  | 15 => ⟨S16x3x514x1, .f32⟩
  | 16 => ⟨S16x3x514x1, .f32⟩
  | 17 => ⟨S16x3x514x1, .f32⟩
  | 18 => ⟨S16x3x514x514, .f32⟩
  | 19 => ⟨S_, .f32⟩
  | 20 => ⟨S16x3x512x512, .f32⟩
  | 21 => ⟨S16x3x512x512, .f32⟩
  | 22 => ⟨S16x3x512x512, .i1⟩
  | 23 => ⟨S16x3x512x512, .f32⟩
  | 24 => ⟨S_, .f32⟩
  | 25 => ⟨S16x3x512x512, .f32⟩
  | 26 => ⟨S16x3x512x512, .f32⟩
  | 27 => ⟨S16x3x512x512, .f32⟩
  | 28 => ⟨S16x3x512x512, .f32⟩
  | 29 => ⟨S16x3x512x512, .i1⟩
  | 30 => ⟨S16x3x512x512, .f32⟩
  | 31 => ⟨S_, .f32⟩
  | 32 => ⟨S16x3x512x512, .f32⟩
  | 33 => ⟨S16x3x512x512, .f32⟩
  | 34 => ⟨S16x3x512x512, .f32⟩
  | 35 => ⟨S16x3x512x512, .f32⟩
  | 36 => ⟨S16x3x512x512, .i1⟩
  | 37 => ⟨S16x3x512x512, .f32⟩
  | 38 => ⟨S_, .f32⟩
  | 39 => ⟨S16x3x512x512, .f32⟩
  | 40 => ⟨S16x3x512x512, .f32⟩
  | 41 => ⟨S16x3x512x512, .f32⟩
  | 42 => ⟨S16x3x512x512, .f32⟩
  | 43 => ⟨S16x3x512x512, .i1⟩
  | 44 => ⟨S16x3x512x512, .f32⟩
  | 45 => ⟨S_, .f32⟩
  | 46 => ⟨S16x3x512x512, .f32⟩
  | 47 => ⟨S16x3x512x512, .f32⟩
  | 48 => ⟨S16x3x512x512, .f32⟩
  | 49 => ⟨S16x3x512x512, .f32⟩
  | 50 => ⟨S16x3x512x512, .i1⟩
  | 51 => ⟨S16x3x512x512, .f32⟩
  | 52 => ⟨S_, .f32⟩
  | 53 => ⟨S16x3x512x512, .f32⟩
  | 54 => ⟨S16x3x512x512, .f32⟩
  | 55 => ⟨S16x3x512x512, .f32⟩
  | 56 => ⟨S16x3x512x512, .f32⟩
  | 57 => ⟨S16x3x512x512, .i1⟩
  | 58 => ⟨S16x3x512x512, .f32⟩
  | 59 => ⟨S_, .f32⟩
  | 60 => ⟨S16x3x512x512, .f32⟩
  | 61 => ⟨S16x3x512x512, .f32⟩
  | 62 => ⟨S16x3x512x512, .f32⟩
  | 63 => ⟨S16x3x512x512, .f32⟩
  | 64 => ⟨S16x3x512x512, .i1⟩
  | 65 => ⟨S16x3x512x512, .f32⟩
  | 66 => ⟨S_, .f32⟩
  | 67 => ⟨S16x3x512x512, .f32⟩
  | 68 => ⟨S16x3x512x512, .f32⟩
  | 69 => ⟨S16x3x512x512, .f32⟩
  | 70 => ⟨S16x3x512x512, .f32⟩
  | 71 => ⟨S16x3x512x512, .i1⟩
  | 72 => ⟨S16x3x512x512, .f32⟩
  | 73 => ⟨S_, .f32⟩
  | 74 => ⟨S16x3x512x512, .f32⟩
  | 75 => ⟨S16x3x512x512, .f32⟩
  | 76 => ⟨S16x3x512x512, .f32⟩
  | 77 => ⟨S_, .f32⟩
  | 78 => ⟨S16x3x512x512, .f32⟩
  | 79 => ⟨S16x3x512x512, .f32⟩
  | 80 => ⟨S_, .i32⟩
  | 81 => ⟨S16x3x1x512, .f32⟩
  | 82 => ⟨S16x3x1x512, .f32⟩
  | 83 => ⟨S16x3x1x512, .f32⟩
  | 84 => ⟨S16x3x513x512, .f32⟩
  | 85 => ⟨S16x3x1x512, .f32⟩
  | 86 => ⟨S16x3x1x512, .f32⟩
  | 87 => ⟨S16x3x1x512, .f32⟩
  | 88 => ⟨S16x3x514x512, .f32⟩
  | 89 => ⟨S16x3x514x1, .f32⟩
  | 90 => ⟨S16x3x514x1, .f32⟩
  | 91 => ⟨S16x3x514x1, .f32⟩
  | 92 => ⟨S16x3x514x513, .f32⟩
  | 93 => ⟨S16x3x514x1, .f32⟩
  | 94 => ⟨S16x3x514x1, .f32⟩
  | 95 => ⟨S16x3x514x1, .f32⟩
  | 96 => ⟨S16x3x514x514, .f32⟩
  | 97 => ⟨S_, .f32⟩
  | 98 => ⟨S16x3x512x512, .f32⟩
  | 99 => ⟨S16x3x512x512, .f32⟩
  | 100 => ⟨S16x3x512x512, .i1⟩
  | 101 => ⟨S16x3x512x512, .f32⟩
  | 102 => ⟨S_, .f32⟩
  | 103 => ⟨S16x3x512x512, .f32⟩
  | 104 => ⟨S16x3x512x512, .f32⟩
  | 105 => ⟨S16x3x512x512, .f32⟩
  | 106 => ⟨S16x3x512x512, .f32⟩
  | 107 => ⟨S16x3x512x512, .i1⟩
  | 108 => ⟨S16x3x512x512, .f32⟩
  | 109 => ⟨S_, .f32⟩
  | 110 => ⟨S16x3x512x512, .f32⟩
  | 111 => ⟨S16x3x512x512, .f32⟩
  | 112 => ⟨S16x3x512x512, .f32⟩
  | 113 => ⟨S16x3x512x512, .f32⟩
  | 114 => ⟨S16x3x512x512, .i1⟩
  | 115 => ⟨S16x3x512x512, .f32⟩
  | 116 => ⟨S_, .f32⟩
  | 117 => ⟨S16x3x512x512, .f32⟩
  | 118 => ⟨S16x3x512x512, .f32⟩
  | 119 => ⟨S16x3x512x512, .f32⟩
  | 120 => ⟨S16x3x512x512, .f32⟩
  | 121 => ⟨S16x3x512x512, .i1⟩
  | 122 => ⟨S16x3x512x512, .f32⟩
  | 123 => ⟨S_, .f32⟩
  | 124 => ⟨S16x3x512x512, .f32⟩
  | 125 => ⟨S16x3x512x512, .f32⟩
  | 126 => ⟨S16x3x512x512, .f32⟩
  | 127 => ⟨S16x3x512x512, .f32⟩
  | _ => ⟨S16x3x512x512, .f32⟩

abbrev hbmTy0_1 (i : Nat) : BufTy := match i % 128 with
  | 0 => ⟨S16x3x512x512, .i1⟩
  | 1 => ⟨S16x3x512x512, .f32⟩
  | 2 => ⟨S_, .f32⟩
  | 3 => ⟨S16x3x512x512, .f32⟩
  | 4 => ⟨S16x3x512x512, .f32⟩
  | 5 => ⟨S16x3x512x512, .f32⟩
  | 6 => ⟨S16x3x512x512, .f32⟩
  | 7 => ⟨S16x3x512x512, .i1⟩
  | 8 => ⟨S16x3x512x512, .f32⟩
  | 9 => ⟨S_, .f32⟩
  | 10 => ⟨S16x3x512x512, .f32⟩
  | 11 => ⟨S16x3x512x512, .f32⟩
  | 12 => ⟨S16x3x512x512, .f32⟩
  | 13 => ⟨S16x3x512x512, .f32⟩
  | 14 => ⟨S16x3x512x512, .i1⟩
  | 15 => ⟨S16x3x512x512, .f32⟩
  | 16 => ⟨S_, .f32⟩
  | 17 => ⟨S16x3x512x512, .f32⟩
  | 18 => ⟨S16x3x512x512, .f32⟩
  | 19 => ⟨S16x3x512x512, .f32⟩
  | 20 => ⟨S16x3x512x512, .f32⟩
  | 21 => ⟨S16x3x512x512, .i1⟩
  | 22 => ⟨S16x3x512x512, .f32⟩
  | 23 => ⟨S_, .f32⟩
  | 24 => ⟨S16x3x512x512, .f32⟩
  | 25 => ⟨S16x3x512x512, .f32⟩
  | 26 => ⟨S16x3x512x512, .f32⟩
  | 27 => ⟨S_, .f32⟩
  | 28 => ⟨S16x3x512x512, .f32⟩
  | 29 => ⟨S16x3x512x512, .f32⟩
  | 30 => ⟨S16x3x512x512, .f32⟩
  | 31 => ⟨S16x3x512x512, .f32⟩
  | 32 => ⟨S_, .f32⟩
  | 33 => ⟨S_, .f32⟩
  | 34 => ⟨S_, .f32⟩
  | _ => ⟨S16x3x512x512, .f32⟩

abbrev hbmTy (i : Nat) : BufTy := match i / 128 with
  | 0 => hbmTy0_0 i
  | 1 => hbmTy0_1 i
  | _ => ⟨S16x3x512x512, .f32⟩

abbrev bufTy : (tb : Table) → Fin (tcTables nBuf tb) → BufTy
  | .hbm, ⟨i, _⟩ => hbmTy i
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_c_9 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_v8 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_v52 : Ref sig .tc := ⟨.hbm, 96, rfl⟩
abbrev main_cst_10 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_11 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_cst_12 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_13 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_cst_15 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_16 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_17 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_18 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_19 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_20 : Ref sig .tc := ⟨.hbm, 160, rfl⟩
abbrev main_v106 : Ref sig .tc := ⟨.hbm, 161, rfl⟩
abbrev main_v107 : Ref sig .tc := ⟨.hbm, 162, rfl⟩

abbrev nD : Nat := 1
abbrev τ : Topo := Topo.v7x

variable {F : FTy → Type} [FloatOps F]

class Facts₀ : Prop where
  slices_S16x3x512x512_S16x3x1x512_0_0_0_0 : S16x3x512x512.Slices ![0, 0, 0, 0] S16x3x1x512
  slices_S16x3x512x512_S16x3x1x512_0_0_1_0 : S16x3x512x512.Slices ![0, 0, 1, 0] S16x3x1x512
  concatenates_S16x3x1x512_S16x3x512x512_S16x3x513x512_d2 : Shape.Concatenates [S16x3x1x512, S16x3x512x512] S16x3x513x512 2
  slices_S16x3x513x512_S16x3x1x512_0_0_512_0 : S16x3x513x512.Slices ![0, 0, 512, 0] S16x3x1x512
  slices_S16x3x513x512_S16x3x1x512_0_0_511_0 : S16x3x513x512.Slices ![0, 0, 511, 0] S16x3x1x512
  concatenates_S16x3x513x512_S16x3x1x512_S16x3x514x512_d2 : Shape.Concatenates [S16x3x513x512, S16x3x1x512] S16x3x514x512 2
  slices_S16x3x514x512_S16x3x514x1_0_0_0_0 : S16x3x514x512.Slices ![0, 0, 0, 0] S16x3x514x1
  slices_S16x3x514x512_S16x3x514x1_0_0_0_1 : S16x3x514x512.Slices ![0, 0, 0, 1] S16x3x514x1
  concatenates_S16x3x514x1_S16x3x514x512_S16x3x514x513_d3 : Shape.Concatenates [S16x3x514x1, S16x3x514x512] S16x3x514x513 3
  slices_S16x3x514x513_S16x3x514x1_0_0_0_512 : S16x3x514x513.Slices ![0, 0, 0, 512] S16x3x514x1
  slices_S16x3x514x513_S16x3x514x1_0_0_0_511 : S16x3x514x513.Slices ![0, 0, 0, 511] S16x3x514x1
  concatenates_S16x3x514x513_S16x3x514x1_S16x3x514x514_d3 : Shape.Concatenates [S16x3x514x513, S16x3x514x1] S16x3x514x514 3
  bcast_S_S16x3x512x512 : S_.BroadcastsInDim S16x3x512x512 (![] : Fin 0 → Fin S16x3x512x512.rank)
  slices_S16x3x514x514_S16x3x512x512_0_0_0_0 : S16x3x514x514.Slices ![0, 0, 0, 0] S16x3x512x512
  slices_S16x3x514x514_S16x3x512x512_0_0_0_1 : S16x3x514x514.Slices ![0, 0, 0, 1] S16x3x512x512
  slices_S16x3x514x514_S16x3x512x512_0_0_0_2 : S16x3x514x514.Slices ![0, 0, 0, 2] S16x3x512x512
  slices_S16x3x514x514_S16x3x512x512_0_0_1_2 : S16x3x514x514.Slices ![0, 0, 1, 2] S16x3x512x512
  slices_S16x3x514x514_S16x3x512x512_0_0_2_2 : S16x3x514x514.Slices ![0, 0, 2, 2] S16x3x512x512
  slices_S16x3x514x514_S16x3x512x512_0_0_2_1 : S16x3x514x514.Slices ![0, 0, 2, 1] S16x3x512x512
  slices_S16x3x514x514_S16x3x512x512_0_0_2_0 : S16x3x514x514.Slices ![0, 0, 2, 0] S16x3x512x512
  slices_S16x3x514x514_S16x3x512x512_0_0_1_0 : S16x3x514x514.Slices ![0, 0, 1, 0] S16x3x512x512
  reducesTo_S16x3x512x512_S_d0_1_2_3 : S16x3x512x512.ReducesTo [0, 1, 2, 3] S_
  h_S_ : 0 < S_.numel

variable [Facts₀]

class Facts : Prop extends Facts₀ where

variable [Facts]
-- ==== Proof.LbpSpec.lean ====
/-
  The texture distance both programs compute, written once as a function of the two images and of their
  padded copies.

  Around every pixel the eight neighbours (read from a copy of the plane padded by one pixel on each side) are
  compared with the pixel itself; neighbour k contributes the weight 2^k when it is at least the pixel. The sum of
  the eight contributions is the pixel's code, a whole number between 0 and 255. The distance is the square root
  of the sum, over every pixel of every plane, of the absolute difference of the two images' codes, scaled by the
  single-precision number nearest 1/255.

  One program scales each code before subtracting and adds all 16·3·512·512 terms in one sum; the other
  subtracts first, scales the absolute value, and adds plane by plane (lanes, then rows, then the 48 planes).
  Codes are finite and the scale is non-negative, so |a·s − b·s| = |a − b|·s, and a finite sum may be regrouped:
  the two totals agree.
-/
import Idealize.ShloMosaic.PureOps.Ideal
import Idealize.ShloMosaic.PureOps.Ideal.Laws
import Idealize.ShloMosaic.Lib.ValueIdx

noncomputable section

namespace Cert.Lbp

open Idealize.ShloMosaic Idealize.ShloMosaic.ValueIdx

/-- One comparison as an extended real: 1 when the neighbour is at least the centre, else 0. -/
def bit (nb ctr : EReal) : EReal := (((Ideal.cmp .oge nb ctr).toNat : ℝ) : EReal)

/-- The single-precision words of the weights 1, 2, 4, …, 128, in the order of the neighbours. -/
def wWord : Fin 8 → BitVec 32 :=
  ![0x3F800000#32, 0x40000000#32, 0x40800000#32, 0x41000000#32, 0x41800000#32, 0x42000000#32, 0x42800000#32, 0x43000000#32]

/-- Weight k as an extended real. -/
def w (k : Fin 8) : EReal := Ideal.ofBits .f32 (wWord k)

/-- The scale: the single-precision number nearest 1/255. -/
def scale : EReal := Ideal.ofBits .f32 0x3B808081#32

/-- Row offset of neighbour k inside the padded plane (the pixel itself sits at offset 1). -/
def dy : Fin 8 → ℕ := ![0, 0, 0, 1, 2, 2, 2, 1]
/-- Column offset of neighbour k inside the padded plane. -/
def dx : Fin 8 → ℕ := ![0, 1, 2, 2, 2, 1, 0, 0]

/-- A pixel's code from its eight neighbours' values and its own: the contributions added from neighbour 0 on,
    starting from zero, in that association. -/
def code (n : Fin 8 → EReal) (x : EReal) : EReal :=
  Ideal.ofBits .f32 0x00000000#32 + w 0 * bit (n 0) x + w 1 * bit (n 1) x + w 2 * bit (n 2) x + w 3 * bit (n 3) x
    + w 4 * bit (n 4) x + w 5 * bit (n 5) x + w 6 * bit (n 6) x + w 7 * bit (n 7) x

/-- The eight neighbours of pixel (i, j) of plane (b, c), read from the padded image. -/
def nbs4 (P : (⟨4, ![16, 3, 514, 514]⟩ : Shape).Idx → EReal) (b : Fin 16) (c : Fin 3) (i j : Fin 512) : Fin 8 → EReal :=
  fun k => P (ix4 b c ⟨i.val + dy k, by have := i.isLt; fin_cases k <;> simp [dy] <;> omega⟩
                      ⟨j.val + dx k, by have := j.isLt; fin_cases k <;> simp [dx] <;> omega⟩)

/-- The eight neighbours of pixel (i, j) of plane t, read from the padded planes listed one after the other. -/
def nbs3 (Q : (⟨3, ![48, 514, 514]⟩ : Shape).Idx → EReal) (t : Fin 48) (i j : Fin 512) : Fin 8 → EReal :=
  fun k => Q (ix3 t ⟨i.val + dy k, by have := i.isLt; fin_cases k <;> simp [dy] <;> omega⟩
                    ⟨j.val + dx k, by have := j.isLt; fin_cases k <;> simp [dx] <;> omega⟩)

/-- The total as the first program forms it: every code scaled, then subtracted, one sum over all pixels added to
    zero, then the square root. The pixel itself is read from the unpadded image. -/
def totalScaledFirst (P0 P1 : (⟨4, ![16, 3, 514, 514]⟩ : Shape).Idx → EReal)
    (x0 x1 : (⟨4, ![16, 3, 512, 512]⟩ : Shape).Idx → EReal) : EReal :=
  Ideal.sqrt (Ideal.ofBits .f32 0x00000000#32
    + ∑ p : (⟨4, ![16, 3, 512, 512]⟩ : Shape).Idx,
        FloatOps.absf (F := Ideal) (φ := .f32)
          (code (nbs4 P0 (p 0) (p 1) (p 2) (p 3)) (x0 p) * scale - code (nbs4 P1 (p 0) (p 1) (p 2) (p 3)) (x1 p) * scale))

/-- One plane's share as the second program forms it: the codes subtracted, the absolute value scaled, added
    along each row and then down the rows. The pixel itself is read from the padded plane, at offset (1, 1). -/
def planeSum (Q0 Q1 : (⟨3, ![48, 514, 514]⟩ : Shape).Idx → EReal) (t : Fin 48) : EReal :=
  ∑ i : Fin 512, ∑ j : Fin 512,
    FloatOps.absf (F := Ideal) (φ := .f32)
      (code (nbs3 Q0 t i j) (Q0 (ix3 t ⟨i.val + 1, by omega⟩ ⟨j.val + 1, by omega⟩))
        - code (nbs3 Q1 t i j) (Q1 (ix3 t ⟨i.val + 1, by omega⟩ ⟨j.val + 1, by omega⟩))) * scale

/-- The total as the second program forms it: the planes' shares added in order, then the square root. -/
def totalByPlanes (Q0 Q1 : (⟨3, ![48, 514, 514]⟩ : Shape).Idx → EReal) : EReal :=
  Ideal.sqrt (∑ t : Fin 48, planeSum Q0 Q1 t)

end Cert.Lbp

end
-- ==== Proof.LbpPad.lean ====
/-
  Padding a stack of planes by one pixel on every side, mirroring about the edge pixel (the edge pixel itself is not
  repeated): row −1 is row 1, row 512 is row 510, and likewise for columns, rows first. Both programs build the padded
  image by the same chain of operations: take the row (column) next to the edge, reverse it along its axis of extent
  one, and join it on.

  The only thing either program's result depends on beyond "both pad the same way" is the middle of the padded image:
  away from the one-pixel border it is the image itself, shifted by (1, 1).
-/
import Idealize.ShloMosaic.PureOps
import Idealize.ShloMosaic.Lib.ValueIdx

noncomputable section

namespace Cert.Lbp

open Idealize.ShloMosaic Idealize.ShloMosaic.ValueIdx

/-- The shapes met on the way: the image, one row of every plane, the image with one and with two rows joined on, one
    column of every plane, the row-padded image with one column joined on, the padded image, and the padded planes
    listed one after the other. -/
abbrev Img : Shape := ⟨4, ![16, 3, 512, 512]⟩
abbrev Row : Shape := ⟨4, ![16, 3, 1, 512]⟩
abbrev Rows513 : Shape := ⟨4, ![16, 3, 513, 512]⟩
abbrev Rows514 : Shape := ⟨4, ![16, 3, 514, 512]⟩
abbrev Col : Shape := ⟨4, ![16, 3, 514, 1]⟩
abbrev Cols513 : Shape := ⟨4, ![16, 3, 514, 513]⟩
abbrev Padded : Shape := ⟨4, ![16, 3, 514, 514]⟩
abbrev Planes : Shape := ⟨3, ![48, 514, 514]⟩

theorem row1 : Img.Slices ![0, 0, 1, 0] Row := by decide
theorem joinTop : Shape.Concatenates [Row, Img] Rows513 2 := by decide
theorem row511 : Rows513.Slices ![0, 0, 511, 0] Row := by decide
theorem joinBottom : Shape.Concatenates [Rows513, Row] Rows514 2 := by decide
theorem col1 : Rows514.Slices ![0, 0, 0, 1] Col := by decide
theorem joinLeft : Shape.Concatenates [Col, Rows514] Cols513 3 := by decide
theorem col511 : Cols513.Slices ![0, 0, 0, 511] Col := by decide
theorem joinRight : Shape.Concatenates [Cols513, Col] Padded 3 := by decide
theorem listPlanes : Padded.ShapeCasts Planes := by decide

variable {F : FTy → Type} [FloatOps F]

/-- The padded image as the chain of slices, reversals and joins both programs apply, rows first, then columns. -/
def pad (x : FVec F Img .f32) : FVec F Padded .f32 :=
  let top : FVec F Row .f32 := Host.reverse [2] (extractStridedSlice Row ![0, 0, 1, 0] x row1)
  let a : FVec F Rows513 .f32 := concatenate Rows513 2 [⟨Row, top⟩, ⟨Img, x⟩] joinTop
  let bot : FVec F Row .f32 := Host.reverse [2] (extractStridedSlice Row ![0, 0, 511, 0] a row511)
  let rows : FVec F Rows514 .f32 := concatenate Rows514 2 [⟨Rows513, a⟩, ⟨Row, bot⟩] joinBottom
  let left : FVec F Col .f32 := Host.reverse [3] (extractStridedSlice Col ![0, 0, 0, 1] rows col1)
  let b : FVec F Cols513 .f32 := concatenate Cols513 3 [⟨Col, left⟩, ⟨Rows514, rows⟩] joinLeft
  let right : FVec F Col .f32 := Host.reverse [3] (extractStridedSlice Col ![0, 0, 0, 511] b col511)
  concatenate Padded 3 [⟨Cols513, b⟩, ⟨Col, right⟩] joinRight

/-- The padded planes listed one after the other: planes (b, c) in row-major order become plane 3·b + c. -/
def planes (P : FVec F Padded .f32) : FVec F Planes .f32 :=
  shapeCast Planes P listPlanes

end Cert.Lbp

end
-- ==== Proof.LbpInterior.lean ====
/-
  Two readings of the padded image at an index.

  Away from its one-pixel border the padded image is the image itself shifted by (1, 1): an index whose row and
  column are both between 1 and 512 lies, at each of the four joins, in the piece that came from the image, never
  in a mirrored row or column.

  Listing the 16·3 padded planes one after the other puts plane (b, c) at position 3·b + c, rows and columns
  unchanged.
-/
import proofs.«133845_j39152921870850_2_alg».proof.Proof.LbpPad
import Idealize.ShloMosaic.Lib.Pipeline.Value

noncomputable section

namespace Cert.Lbp

open Idealize.ShloMosaic Idealize.ShloMosaic.ValueIdx

variable {F : FTy → Type} [FloatOps F]

/-- The middle of the padded image is the image. -/
theorem pad_interior (x : FVec F Img .f32) (b : Fin 16) (c : Fin 3) (i j : Fin 512) :
    pad x (ix4 b c (⟨i.val + 1, by omega⟩ : Fin 514) (⟨j.val + 1, by omega⟩ : Fin 514)) = x (ix4 b c i j) := by
  unfold pad
  dsimp only
  -- the last join, on columns: column j+1 ≤ 512 lies in the first piece (513 columns)
  refine (concatenate_pair_apply_left (t := Padded) (s₁ := Cols513) (s₂ := Col) (3 : Fin 4) _ _ joinRight _ rfl
    (ix4 b c (⟨i.val + 1, by omega⟩ : Fin 514) (⟨j.val + 1, by omega⟩ : Fin 513))
    (fun d => by match d with | ⟨0, _⟩ => rfl | ⟨1, _⟩ => rfl | ⟨2, _⟩ => rfl | ⟨3, _⟩ => rfl)).trans ?_
  -- the join before it, on columns: column j+1 ≥ 1 lies in the second piece, at column j
  refine (concatenate_pair_apply_right (t := Cols513) (s₁ := Col) (s₂ := Rows514) (3 : Fin 4) _ _ joinLeft _ rfl rfl
    (ix4 b c (⟨i.val + 1, by omega⟩ : Fin 514) j)
    (fun d hd => by match d with | ⟨0, _⟩ => rfl | ⟨1, _⟩ => rfl | ⟨2, _⟩ => rfl | ⟨3, _⟩ => exact absurd rfl hd)
    rfl).trans ?_
  -- the second join on rows: row i+1 ≤ 512 lies in the first piece (513 rows)
  refine (concatenate_pair_apply_left (t := Rows514) (s₁ := Rows513) (s₂ := Row) (2 : Fin 4) _ _ joinBottom _ rfl
    (ix4 b c (⟨i.val + 1, by omega⟩ : Fin 513) j)
    (fun d => by match d with | ⟨0, _⟩ => rfl | ⟨1, _⟩ => rfl | ⟨2, _⟩ => rfl | ⟨3, _⟩ => rfl)).trans ?_
  -- the first join on rows: row i+1 ≥ 1 lies in the second piece, the image, at row i
  exact concatenate_pair_apply_right (t := Rows513) (s₁ := Row) (s₂ := Img) (2 : Fin 4) _ _ joinTop _ rfl rfl (ix4 b c i j)
    (fun d hd => by match d with | ⟨0, _⟩ => rfl | ⟨1, _⟩ => rfl | ⟨2, _⟩ => exact absurd rfl hd | ⟨3, _⟩ => rfl)
    rfl

/-- Plane t of the listed planes is plane (t / 3, t % 3) of the padded image. -/
theorem planes_apply (P : FVec F Padded .f32) (t : Fin 48) (i j : Fin 514) :
    planes P (ix3 t i j) = P (ix4 (⟨t.val / 3, by omega⟩ : Fin 16) (⟨t.val % 3, by omega⟩ : Fin 3) i j) := by
  unfold planes
  refine shapeCast_apply P listPlanes (ix3 t i j) _ ?_
  rw [Shape.rowMajor_val_four, Shape.rowMajor_val_three]
  have := Nat.div_add_mod t.val 3
  show ((t.val / 3 * 3 + t.val % 3) * 514 + i.val) * 514 + j.val = (t.val * 514 + i.val) * 514 + j.val
  have h : t.val / 3 * 3 + t.val % 3 = t.val := by omega
  rw [h]

end Cert.Lbp

end
-- ==== Proof.LbpLaw.lean ====
/-
  The two ways of forming the total agree.

  Every weight and the scale are finite non-negative numbers, and a comparison contributes 0 or 1, so every code is a
  finite number. For finite a, b and s ≥ 0, |a·s − b·s| = |a − b|·s. A sum over all pixels of all 16·3 planes is the
  sum over the planes in order (plane (b, c) at position 3·b + c), over rows, over columns. Where the pixel itself is
  read from the middle of the padded image, it is the image's pixel.
-/
import proofs.«133845_j39152921870850_2_alg».proof.Proof.LbpSpec
import proofs.«133845_j39152921870850_2_alg».proof.Proof.LbpInterior

noncomputable section

namespace Cert.Lbp

open Idealize.ShloMosaic Idealize.ShloMosaic.ValueIdx

/-! ## The words are finite non-negative numbers -/

/-- A single-precision word with a clear sign bit and an exponent field that is not all ones denotes a finite
    non-negative number. -/
theorem ieee_nonneg_real (b : BitVec 32) (hs : (b.extractLsb' 31 1 == 1#1) = false)
    (he : (b.extractLsb' 23 8).toNat ≠ 255) : ∃ r : ℝ, 0 ≤ r ∧ Ideal.ofBits .f32 b = (r : EReal) := by
  show ∃ r : ℝ, 0 ≤ r ∧ Ideal.ieee 8 23 b = (r : EReal)
  unfold Ideal.ieee
  simp only [hs, Bool.false_eq_true, ↓reduceIte]
  have he' : ¬ (b.extractLsb' 23 8).toNat = 2 ^ 8 - 1 := by norm_num; exact he
  rw [if_neg he']
  by_cases h0 : (b.extractLsb' 23 8).toNat = 0
  · rw [if_pos h0]; exact ⟨_, by positivity, rfl⟩
  · rw [if_neg h0]; exact ⟨_, by positivity, rfl⟩

theorem w_real (k : Fin 8) : ∃ r : ℝ, 0 ≤ r ∧ w k = (r : EReal) := by
  unfold w wWord
  fin_cases k <;> exact ieee_nonneg_real _ (by decide) (by decide)

theorem scale_real : ∃ s : ℝ, 0 ≤ s ∧ scale = (s : EReal) :=
  ieee_nonneg_real _ (by decide) (by decide)

theorem bit_real (a b : EReal) : ∃ r : ℝ, bit a b = (r : EReal) := ⟨_, rfl⟩

/-- A code is a finite number. -/
theorem code_real (n : Fin 8 → EReal) (x : EReal) : ∃ r : ℝ, code n x = (r : EReal) := by
  obtain ⟨r0, _, h0⟩ := w_real 0; obtain ⟨r1, _, h1⟩ := w_real 1; obtain ⟨r2, _, h2⟩ := w_real 2
  obtain ⟨r3, _, h3⟩ := w_real 3; obtain ⟨r4, _, h4⟩ := w_real 4; obtain ⟨r5, _, h5⟩ := w_real 5
  obtain ⟨r6, _, h6⟩ := w_real 6; obtain ⟨r7, _, h7⟩ := w_real 7
  unfold code bit
  rw [Ideal.ofBits_zero_f32, h0, h1, h2, h3, h4, h5, h6, h7]
  exact ⟨_, by push_cast; rfl⟩

/-! ## Scaling before or after the subtraction -/

theorem abs_scaled (a b s : ℝ) (hs : 0 ≤ s) :
    FloatOps.absf (F := Ideal) (φ := .f32) ((a : EReal) * (s : EReal) - (b : EReal) * (s : EReal))
      = FloatOps.absf (F := Ideal) (φ := .f32) ((a : EReal) - (b : EReal)) * (s : EReal) := by
  have hmax : ∀ x y : ℝ, max (x : EReal) (y : EReal) = ((max x y : ℝ) : EReal) :=
    fun x y => (EReal.coe_strictMono.monotone.map_max).symm
  have e1 : a * s - b * s = (a - b) * s := by ring
  rw [Ideal.absf_def, Ideal.absf_def]
  rw [← EReal.coe_mul, ← EReal.coe_mul, ← EReal.coe_sub, ← EReal.coe_sub, ← EReal.coe_neg, ← EReal.coe_neg]
  rw [hmax, hmax, ← EReal.coe_mul, max_mul_of_nonneg _ _ hs, e1, neg_mul]

theorem abs_code_scaled (n0 n1 : Fin 8 → EReal) (y0 y1 : EReal) :
    FloatOps.absf (F := Ideal) (φ := .f32) (code n0 y0 * scale - code n1 y1 * scale)
      = FloatOps.absf (F := Ideal) (φ := .f32) (code n0 y0 - code n1 y1) * scale := by
  obtain ⟨a, ha⟩ := code_real n0 y0
  obtain ⟨b, hb⟩ := code_real n1 y1
  obtain ⟨s, hs, hsc⟩ := scale_real
  rw [ha, hb, hsc]
  exact abs_scaled a b s hs

/-! ## Regrouping the sum -/

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun p := (p 0, p 1, p 2, p 3)
  invFun q := ix4 q.1 q.2.1 q.2.2.1 q.2.2.2
  left_inv p := (eq_ix4 p).symm
  right_inv _ := rfl

theorem sum_idx4 {M : Type*} [AddCommMonoid M] {n0 n1 n2 n3 : Nat} (f : (⟨4, ![n0, n1, n2, n3]⟩ : Shape).Idx → M) :
    ∑ p, f p = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Fintype.sum_congr _ _ fun a => ?_
  rw [Fintype.sum_prod_type]
  refine Fintype.sum_congr _ _ fun b => ?_
  rw [Fintype.sum_prod_type]
  rfl

/-- The 48 planes in order are the pairs (b, c) in row-major order. -/
theorem sum_planes {M : Type*} [AddCommMonoid M] (H : Fin 16 → Fin 3 → M) :
    ∑ t : Fin 48, H ⟨t.val / 3, by omega⟩ ⟨t.val % 3, Nat.mod_lt _ (by norm_num)⟩ = ∑ b : Fin 16, ∑ c : Fin 3, H b c := by
  rw [← Fintype.sum_prod_type (f := fun bc : Fin 16 × Fin 3 => H bc.1 bc.2)]
  refine Fintype.sum_equiv (finProdFinEquiv (m := 16) (n := 3)).symm _ _ fun t => ?_
  rfl

/-! ## The totals -/

theorem planeSum_planes (P0 P1 : Padded.Idx → EReal) (x0 x1 : Img.Idx → EReal)
    (h0 : ∀ (b : Fin 16) (c : Fin 3) (i j : Fin 512),
      P0 (ix4 b c (⟨i.val + 1, by omega⟩ : Fin 514) (⟨j.val + 1, by omega⟩ : Fin 514)) = x0 (ix4 b c i j))
    (h1 : ∀ (b : Fin 16) (c : Fin 3) (i j : Fin 512),
      P1 (ix4 b c (⟨i.val + 1, by omega⟩ : Fin 514) (⟨j.val + 1, by omega⟩ : Fin 514)) = x1 (ix4 b c i j))
    (t : Fin 48) :
    planeSum (planes (F := Ideal) P0) (planes (F := Ideal) P1) t
      = ∑ i : Fin 512, ∑ j : Fin 512,
          FloatOps.absf (F := Ideal) (φ := .f32)
            (code (nbs4 P0 ⟨t.val / 3, by omega⟩ ⟨t.val % 3, Nat.mod_lt _ (by norm_num)⟩ i j)
                (x0 (ix4 ⟨t.val / 3, by omega⟩ ⟨t.val % 3, Nat.mod_lt _ (by norm_num)⟩ i j)) * scale
              - code (nbs4 P1 ⟨t.val / 3, by omega⟩ ⟨t.val % 3, Nat.mod_lt _ (by norm_num)⟩ i j)
                  (x1 (ix4 ⟨t.val / 3, by omega⟩ ⟨t.val % 3, Nat.mod_lt _ (by norm_num)⟩ i j)) * scale) := by
  unfold planeSum
  refine Fintype.sum_congr _ _ fun i => Fintype.sum_congr _ _ fun j => ?_
  rw [abs_code_scaled]
  have e0 : nbs3 (planes (F := Ideal) P0) t i j = nbs4 P0 ⟨t.val / 3, by omega⟩ ⟨t.val % 3, Nat.mod_lt _ (by norm_num)⟩ i j :=
    funext fun k => planes_apply (F := Ideal) P0 t _ _
  have e1 : nbs3 (planes (F := Ideal) P1) t i j = nbs4 P1 ⟨t.val / 3, by omega⟩ ⟨t.val % 3, Nat.mod_lt _ (by norm_num)⟩ i j :=
    funext fun k => planes_apply (F := Ideal) P1 t _ _
  rw [e0, e1, planes_apply (F := Ideal) P0 t, planes_apply (F := Ideal) P1 t, h0, h1]

/-- The total formed plane by plane from the listed padded planes is the total formed in one sum from the padded
    images and the images, when the middle of each padded image is its image. -/
theorem totals_agree (P0 P1 : Padded.Idx → EReal) (x0 x1 : Img.Idx → EReal)
    (h0 : ∀ (b : Fin 16) (c : Fin 3) (i j : Fin 512),
      P0 (ix4 b c (⟨i.val + 1, by omega⟩ : Fin 514) (⟨j.val + 1, by omega⟩ : Fin 514)) = x0 (ix4 b c i j))
    (h1 : ∀ (b : Fin 16) (c : Fin 3) (i j : Fin 512),
      P1 (ix4 b c (⟨i.val + 1, by omega⟩ : Fin 514) (⟨j.val + 1, by omega⟩ : Fin 514)) = x1 (ix4 b c i j)) :
    totalByPlanes (planes (F := Ideal) P0) (planes (F := Ideal) P1) = totalScaledFirst P0 P1 x0 x1 := by
  unfold totalByPlanes totalScaledFirst
  rw [Ideal.ofBits_zero_f32, zero_add]
  refine congrArg Ideal.sqrt ?_
  rw [sum_idx4]
  refine (Fintype.sum_congr _ _ (planeSum_planes P0 P1 x0 x1 h0 h1)).trans ?_
  exact sum_planes (fun b c => ∑ i : Fin 512, ∑ j : Fin 512,
    FloatOps.absf (F := Ideal) (φ := .f32)
      (code (nbs4 P0 b c i j) (x0 (ix4 b c i j)) * scale - code (nbs4 P1 b c i j) (x1 (ix4 b c i j)) * scale))

end Cert.Lbp

end
-- ==== Proof.LbpKernelHost.lean ====
/-
  What the host operations around the region do, read as values.

  Before the region each image is padded by one mirrored pixel on every side (slice the row or column next to the
  edge, reverse it along its axis of extent one, join it on; rows first, then columns) and its 16·3 padded planes are
  listed one after the other; the region's two input arrays are these lists of planes. After the region the one
  entry of the [1,1,1] result array is handed on as a scalar.
-/
import proofs.«133845_j39152921870850_2_alg».proof.Proof.Gen.KernelIdeal.Frame
import proofs.«133845_j39152921870850_2_alg».proof.Proof.LbpPad
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.Lbp.Ker

open Cert.KernelIdeal Cert.KernelIdeal.Gen

variable {F : FTy → Type} [FloatOps F]
variable (m : (ℓ : Loc nD τ sig) → Buf (Elt F) ℓ)

open Idealize.ShloMosaic.ValueIdx

/-- The region's first input array is the first image, padded, its planes listed one after the other. -/
theorem V_main_v1 (c : Dev nD) :
    (V m c main_v1 : Planes.Idx → F .f32) = planes (pad (m ((c : Thread nD τ).loc main_arg0))) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  simp only [StableHlo.TRef.ofBuf, StableHlo.TRef.toBuf, cast_eq]
  rfl

set_option maxHeartbeats 1600000 in
/-- The region's second input array is the second image, padded, its planes listed one after the other. -/
theorem V_main_v3 (c : Dev nD) :
    (V m c main_v3 : Planes.Idx → F .f32) = planes (pad (m ((c : Thread nD τ).loc main_arg1))) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  simp only [StableHlo.TRef.ofBuf, StableHlo.TRef.toBuf, cast_eq]
  rfl

/-- After the region the scalar result is the one entry of the region's [1,1,1] result array, whatever the region
    left there. -/
theorem tail_v5 (dats : (p : Fin 1) → (c : Dev nD) → Dat τ (Elt F) Unit ℕ (UR sig nD τ) ℕ (cfgs p) c) (c : Dev nD) :
    Pipeline.afterTail₀ cfgs dats 0 (V0 m) [hostOps1] c main_v5 = fun _ => (dats 0 c).arrAt 2 cfg0.N (ix3 0 0 0) := by
  unfold Pipeline.afterTail₀
  show StableHlo.after hostOps1 _ (Proc.devRef .tc main_v5) = _
  after_results
  have e := Pipeline.withArrays_arr spec0 launch0.win.arr_inj c (V0 m c) (fun w => (dats 0 c).arrAt w cfg0.N) 2
  funext i
  show shapeCast S_ (Pipeline.withArrays spec0 c (V0 m c) (fun w => (dats 0 c).arrAt w cfg0.N) (Proc.devRef .tc main_v4)) shapeCasts_S1x1x1_S_ i = _
  refine (shapeCast_apply (s := S1x1x1) (t := S_) _ shapeCasts_S1x1x1_S_ i (ix3 0 0 0) ?_).trans (congrFun e (ix3 0 0 0))
  have h1 : (S1x1x1.rowMajor (ix3 0 0 0)).val < 1 := (S1x1x1.rowMajor (ix3 0 0 0)).isLt
  have h2 : (S_.rowMajor i).val < 1 := (S_.rowMajor i).isLt
  omega

end Cert.Lbp.Ker

end
-- ==== Proof.LbpShare.lean ====
/-
  One plane's contribution to the running total, as a function of the two padded planes and of the total so far.

  At a middle grid point the body reads, from each padded plane, the pixel window (offset (1, 1)) and the eight
  neighbour windows (offsets (0,0), (0,1), (0,2), (1,2), (2,2), (2,1), (2,0), (1,0)), each 512 by 512; forms both
  images' codes, the absolute difference scaled by the nearest single-precision number to 1/255; adds along lanes,
  rows and the unit plane axis; and adds the result to the total it found. This module names that term, written with
  the body's own named intermediate values applied to the windows in the body's own order, together with the zero the first
  point starts from and the square root the last point takes.
-/
import proofs.«133845_j39152921870850_2_alg».proof.Proof.Gen.KernelIdeal.Skeleton
import Idealize.ShloMosaic.Lib.Pipeline.Value

noncomputable section

namespace Cert.Lbp.Body

open Idealize.ShloMosaic Cert.KernelIdeal Cert.KernelIdeal.Gen

variable {F : FTy → Type} [FloatOps F]

/-- The 512 by 512 window of a padded plane whose top-left corner is at (r, c): what a load of that rectangle reads
    of a buffer holding the plane. -/
abbrev win (x : Vec F S1x514x514 .f32) (off : Fin 3 → Nat)
    (inb : ∀ a, off a + S1x512x512.size a ≤ S1x514x514.size a) : Vec F S1x512x512 .f32 :=
  View.ld (Val := Elt F) x (Rect.unit (s := S1x514x514) off S1x512x512.size inb)

/-- The total after a middle point: the total before it plus this plane's share. -/
def share (x0 x1 : Vec F S1x514x514 .f32) (acc : Vec F S1x1x1 .f32) : FVec F S1x1x1 .f32 :=
  k0_pay17
    (k0_pay3 (win x0 ![0, 1, 1] inb_S1x514x514_S1x512x512_0_1_1))
    (k0_pay4 (win x1 ![0, 1, 1] inb_S1x514x514_S1x512x512_0_1_1))
    (k0_pay12
      (k0_pay3 (win x0 ![0, 1, 1] inb_S1x514x514_S1x512x512_0_1_1))
      (k0_pay10
        (k0_pay3 (win x0 ![0, 1, 1] inb_S1x514x514_S1x512x512_0_1_1))
        (k0_pay5 (win x0 ![0, 1, 1] inb_S1x514x514_S1x512x512_0_1_1) (win x0 ![0, 0, 0] inb_S1x514x514_S1x512x512_0_0_0))
        (k0_pay8 (win x0 ![0, 1, 1] inb_S1x514x514_S1x512x512_0_1_1) (win x0 ![0, 0, 1] inb_S1x514x514_S1x512x512_0_0_1))
        (k0_pay9 (F := F))
        (win x0 ![0, 0, 2] inb_S1x514x514_S1x512x512_0_0_2)
        (win x0 ![0, 1, 2] inb_S1x514x514_S1x512x512_0_1_2))
      (win x0 ![0, 2, 2] inb_S1x514x514_S1x512x512_0_2_2)
      (win x0 ![0, 2, 1] inb_S1x514x514_S1x512x512_0_2_1))
    (k0_pay13
      (k0_pay4 (win x1 ![0, 1, 1] inb_S1x514x514_S1x512x512_0_1_1))
      (k0_pay11
        (k0_pay4 (win x1 ![0, 1, 1] inb_S1x514x514_S1x512x512_0_1_1))
        (k0_pay6 (win x1 ![0, 1, 1] inb_S1x514x514_S1x512x512_0_1_1) (win x1 ![0, 0, 0] inb_S1x514x514_S1x512x512_0_0_0))
        (k0_pay7 (win x1 ![0, 0, 1] inb_S1x514x514_S1x512x512_0_0_1))
        (win x1 ![0, 0, 2] inb_S1x514x514_S1x512x512_0_0_2)
        (win x1 ![0, 1, 2] inb_S1x514x514_S1x512x512_0_1_2))
      (win x1 ![0, 2, 2] inb_S1x514x514_S1x512x512_0_2_2)
      (win x1 ![0, 2, 1] inb_S1x514x514_S1x512x512_0_2_1))
    (k0_pay14 (win x1 ![0, 2, 0] inb_S1x514x514_S1x512x512_0_2_0))
    (k0_pay15
      (k0_pay3 (win x0 ![0, 1, 1] inb_S1x514x514_S1x512x512_0_1_1))
      (win x0 ![0, 2, 0] inb_S1x514x514_S1x512x512_0_2_0))
    (k0_pay16 (F := F))
    (win x0 ![0, 1, 0] inb_S1x514x514_S1x512x512_0_1_0)
    (win x1 ![0, 1, 0] inb_S1x514x514_S1x512x512_0_1_0)
    acc

/-- What the first point puts in the running total before adding its own share: zero. -/
def zeroAcc : FVec F S1x1x1 .f32 := k0_pay2

/-- What the last point writes out: the square root of the total. -/
def root (a : Vec F S1x1x1 .f32) : FVec F S1x1x1 .f32 := k0_pay1 a

end Cert.Lbp.Body

end
-- ==== Proof.LbpShareValue.lean ====
/-
  The value of one plane's contribution, read at the extended reals.

  Every operation of the body up to the scaled absolute difference acts pixel by pixel, so at pixel (i, j) it can be
  read off directly: a comparison converted to a number is 0 or 1 (the bit of the specification), the eight weighted
  bits are added from neighbour 0 on, starting from zero, which is the pixel's code; a window of the padded plane at
  offset (a, b), read at (i, j), is the plane at (i + a, j + b). The three sums that follow add along lanes, then
  down the rows, then over the one plane; between them the partial sums are only relabelled. So the new total is the
  old one plus the double sum over rows and lanes of |code(first) − code(second)| · scale.
-/
import proofs.«133845_j39152921870850_2_alg».proof.Proof.LbpShare
import proofs.«133845_j39152921870850_2_alg».proof.Proof.LbpSpec
import Idealize.ShloMosaic.Lib.ValueLayout

noncomputable section

namespace Cert.Lbp.Body

open Idealize.ShloMosaic Idealize.ShloMosaic.ValueIdx Cert.KernelIdeal Cert.KernelIdeal.Gen
open scoped BigOperators

/-! ## One comparison as a number -/

/-- A one-bit word widened to 32 bits and read as a signed integer is the bit itself: 0 or 1. -/
theorem toInt_widen (c : BitVec 1) : (c.setWidth 32).toInt = (c.toNat : ℤ) := by
  rcases BitVec.eq_zero_or_eq_one c with h | h <;> subst h <;> decide

/-- "neighbour at least centre", widened and converted to a float, is the specification's bit. -/
theorem bit_eq (a b : Ideal .f32) :
    FloatOps.sitofp (F := Ideal) .f32 ((FloatOps.cmpf (F := Ideal) (φ := .f32) .oge a b).setWidth 32) = Cert.Lbp.bit a b := by
  show ((((Ideal.cmp .oge a b).setWidth 32).toInt : ℝ) : EReal) = (((Ideal.cmp .oge a b).toNat : ℝ) : EReal)
  rw [toInt_widen, Int.cast_natCast]

/-- The absolute value acts element by element. -/
theorem absf_apply {s : Shape} (a : FVec Ideal s .f32) (p : s.Idx) : absf a p = FloatOps.absf (a p) := rfl

/-! ## A window of the padded plane read at a pixel -/

/-- The window at offset (a, b), at pixel (i, j), is the plane at (i + a, j + b). -/
theorem win_apply (x : Vec Ideal S1x514x514 .f32) (a b : ℕ)
    (inb : ∀ c, (![0, a, b] : Fin 3 → ℕ) c + S1x512x512.size c ≤ S1x514x514.size c)
    (i j : Fin 512) (hi : i.val + a < 514) (hj : j.val + b < 514) :
    win x ![0, a, b] inb (ix3 0 i j) = x (ix3 0 ⟨i.val + a, hi⟩ ⟨j.val + b, hj⟩) := by
  show x ((Rect.unit (s := S1x514x514) ![0, a, b] S1x512x512.size inb).idx (ix3 0 i j)) = _
  refine congrArg x (funext fun c => Fin.ext ?_)
  match c with
  | ⟨0, _⟩ => show 0 + 1 * 0 = 0; rfl
  | ⟨1, _⟩ => show a + 1 * i.val = i.val + a; omega
  | ⟨2, _⟩ => show b + 1 * j.val = j.val + b; omega

/-- The eight neighbours of pixel (i, j) read from one padded plane. -/
def nbs1 (x : S1x514x514.Idx → EReal) (i j : Fin 512) : Fin 8 → EReal :=
  fun k => x (ix3 0 ⟨i.val + dy k, by have := i.isLt; fin_cases k <;> simp [dy] <;> omega⟩
                    ⟨j.val + dx k, by have := j.isLt; fin_cases k <;> simp [dx] <;> omega⟩)

/-! ## The pixelwise part of the body, one named value at a time -/

section Pointwise
variable (p : S1x512x512.Idx)

theorem pay3_apply (v : Vec Ideal S1x512x512 .f32) : k0_pay3 v p = v p := by
  unfold k0_pay3; simp only [shapeCast_self]
theorem pay4_apply (v : Vec Ideal S1x512x512 .f32) : k0_pay4 v p = v p := by
  unfold k0_pay4; simp only [shapeCast_self]
theorem pay7_apply (v : Vec Ideal S1x512x512 .f32) : k0_pay7 v p = v p := by
  unfold k0_pay7; simp only [shapeCast_self]
theorem pay14_apply (v : Vec Ideal S1x512x512 .f32) : k0_pay14 v p = v p := by
  unfold k0_pay14; simp only [shapeCast_self]
theorem pay9_apply : k0_pay9 (F := Ideal) p = w 1 := rfl
theorem pay16_apply : k0_pay16 (F := Ideal) p = w 6 := rfl

theorem pay5_apply (v3 v9 : Vec Ideal S1x512x512 .f32) :
    k0_pay5 v3 v9 p = Ideal.ofBits .f32 0x00000000#32 + w 0 * bit (v9 p) (v3 p) := by
  unfold k0_pay5 k0_pay3
  simp only [shapeCast_self, addf_apply, mulf_apply, broadcast_apply, sitofp_apply, extui_apply, cmpf_apply, bit_eq]
  rfl
theorem pay6_apply (v5 v11 : Vec Ideal S1x512x512 .f32) :
    k0_pay6 v5 v11 p = Ideal.ofBits .f32 0x00000000#32 + w 0 * bit (v11 p) (v5 p) := by
  unfold k0_pay6 k0_pay4
  simp only [shapeCast_self, addf_apply, mulf_apply, broadcast_apply, sitofp_apply, extui_apply, cmpf_apply, bit_eq]
  rfl
theorem pay8_apply (v3 v25 : Vec Ideal S1x512x512 .f32) : k0_pay8 v3 v25 p = bit (v25 p) (v3 p) := by
  unfold k0_pay8 k0_pay3
  simp only [shapeCast_self, sitofp_apply, extui_apply, cmpf_apply, bit_eq]
theorem pay15_apply (v4 : FVec Ideal S1x512x512 .f32) (v105 : Vec Ideal S1x512x512 .f32) :
    k0_pay15 v4 v105 p = bit (v105 p) (v4 p) := by
  unfold k0_pay15
  simp only [shapeCast_self, sitofp_apply, extui_apply, cmpf_apply, bit_eq]

theorem pay10_apply (v4 v18 v31 v32 : FVec Ideal S1x512x512 .f32) (v41 v57 : Vec Ideal S1x512x512 .f32) :
    k0_pay10 v4 v18 v31 v32 v41 v57 p
      = v18 p + v32 p * v31 p + w 2 * bit (v41 p) (v4 p) + w 3 * bit (v57 p) (v4 p) := by
  unfold k0_pay10
  simp only [shapeCast_self, addf_apply, mulf_apply, broadcast_apply, sitofp_apply, extui_apply, cmpf_apply, bit_eq]
  rfl
theorem pay11_apply (v6 v24 v28 : FVec Ideal S1x512x512 .f32) (v43 v59 : Vec Ideal S1x512x512 .f32) :
    k0_pay11 v6 v24 v28 v43 v59 p
      = v24 p + w 1 * bit (v28 p) (v6 p) + w 2 * bit (v43 p) (v6 p) + w 3 * bit (v59 p) (v6 p) := by
  unfold k0_pay11
  simp only [shapeCast_self, addf_apply, mulf_apply, broadcast_apply, sitofp_apply, extui_apply, cmpf_apply, bit_eq]
  rfl
theorem pay12_apply (v4 v66 : FVec Ideal S1x512x512 .f32) (v73 v89 : Vec Ideal S1x512x512 .f32) :
    k0_pay12 v4 v66 v73 v89 p = v66 p + w 4 * bit (v73 p) (v4 p) + w 5 * bit (v89 p) (v4 p) := by
  unfold k0_pay12
  simp only [shapeCast_self, addf_apply, mulf_apply, broadcast_apply, sitofp_apply, extui_apply, cmpf_apply, bit_eq]
  rfl
theorem pay13_apply (v6 v72 : FVec Ideal S1x512x512 .f32) (v75 v91 : Vec Ideal S1x512x512 .f32) :
    k0_pay13 v6 v72 v75 v91 p = v72 p + w 4 * bit (v75 p) (v6 p) + w 5 * bit (v91 p) (v6 p) := by
  unfold k0_pay13
  simp only [shapeCast_self, addf_apply, mulf_apply, broadcast_apply, sitofp_apply, extui_apply, cmpf_apply, bit_eq]
  rfl

end Pointwise

/-! ## The three sums -/

/-- Adding along lanes: row i of the result is the sum over the lanes of row i. -/
theorem lanes (d : FVec Ideal S1x512x512 .f32) (i : Fin 512) :
    multiReduction .add [2] S1x512 d 0x00000000#32 reduces_S1x512x512_S1x512 (.inl rfl) rfl (ix2 0 i)
      = ∑ j : Fin 512, d (ix3 0 i j) := by
  refine (Ideal.multiReduction_add_single d _ reduces_S1x512x512_S1x512 _ _ (ix2 0 i)).trans ?_
  show ∑ j : Fin 512, d (reduces_S1x512x512_S1x512.lift (ix2 0 i) j) = _
  refine Finset.sum_congr rfl fun j _ => congrArg d (funext fun c => Fin.ext ?_)
  match c with
  | ⟨0, _⟩ => rfl
  | ⟨1, _⟩ => rfl
  | ⟨2, _⟩ => rfl

/-- The row sums relabelled as a column keep their values. -/
theorem column (v : FVec Ideal S1x512 .f32) (i : Fin 512) :
    shapeCast S1x512x1 v shapeCasts_S1x512_S1x512x1 (ix3 0 i 0) = v (ix2 0 i) :=
  shapeCast_apply v _ _ _ (by
    rw [Shape.rowMajor_val_two, Shape.rowMajor_val_three]
    show 0 * 512 + i.val = (0 * 512 + i.val) * 1 + 0
    omega)

/-- Adding down the rows of the column. -/
theorem rows (u : FVec Ideal S1x512x1 .f32) :
    multiReduction .add [1] S1x1 u 0x00000000#32 reduces_S1x512x1_S1x1 (.inl rfl) rfl (ix2 0 0)
      = ∑ i : Fin 512, u (ix3 0 i 0) := by
  refine (Ideal.multiReduction_add_single u _ reduces_S1x512x1_S1x1 _ _ (ix2 0 0)).trans ?_
  show ∑ i : Fin 512, u (reduces_S1x512x1_S1x1.lift (ix2 0 0) i) = _
  refine Finset.sum_congr rfl fun i _ => congrArg u (funext fun c => Fin.ext ?_)
  match c with
  | ⟨0, _⟩ => rfl
  | ⟨1, _⟩ => rfl
  | ⟨2, _⟩ => rfl

/-- A one-by-one array relabelled one-by-one-by-one keeps its value. -/
theorem unit3 (v : FVec Ideal S1x1 .f32) : shapeCast S1x1x1 v shapeCasts_S1x1_S1x1x1 (ix3 0 0 0) = v (ix2 0 0) :=
  shapeCast_ab_1ab_apply v _ 0 0 0

/-- Adding over the one plane changes nothing. -/
theorem plane (u : FVec Ideal S1x1x1 .f32) :
    multiReduction .add [0] S1x1 u 0x00000000#32 reduces_S1x1x1_S1x1 (.inl rfl) rfl (ix2 0 0) = u (ix3 0 0 0) := by
  refine (Ideal.multiReduction_add_single u _ reduces_S1x1x1_S1x1 _ _ (ix2 0 0)).trans ?_
  show ∑ k : Fin 1, u (reduces_S1x1x1_S1x1.lift (ix2 0 0) k) = _
  rw [Fin.sum_univ_one]
  refine congrArg u (funext fun c => Fin.ext ?_)
  match c with
  | ⟨0, _⟩ => rfl
  | ⟨1, _⟩ => rfl
  | ⟨2, _⟩ => rfl

/-- The end of the body as a function of the pixelwise values d and of the total found: lanes, rows and the one plane
    are added up and the result is added to the total. -/
def total (d : FVec Ideal S1x512x512 .f32) (acc : Vec Ideal S1x1x1 .f32) : FVec Ideal S1x1x1 .f32 :=
  addf acc
    (shapeCast S1x1x1
      (multiReduction .add [0] S1x1
        (shapeCast S1x1x1
          (multiReduction .add [1] S1x1
            (shapeCast S1x512x1
              (multiReduction .add [2] S1x512 d 0x00000000#32 reduces_S1x512x512_S1x512 (.inl rfl) rfl)
              shapeCasts_S1x512_S1x512x1)
            0x00000000#32 reduces_S1x512x1_S1x1 (.inl rfl) rfl)
          shapeCasts_S1x1_S1x1x1)
        0x00000000#32 reduces_S1x1x1_S1x1 (.inl rfl) rfl)
      shapeCasts_S1x1_S1x1x1)

theorem total_apply (d : FVec Ideal S1x512x512 .f32) (acc : Vec Ideal S1x1x1 .f32) :
    total d acc (ix3 0 0 0) = acc (ix3 0 0 0) + ∑ i : Fin 512, ∑ j : Fin 512, d (ix3 0 i j) := by
  unfold total
  rw [addf_apply, unit3, plane, unit3, rows]
  refine congrArg (acc (ix3 0 0 0) + ·) (Finset.sum_congr rfl fun i _ => ?_)
  rw [column, lanes]

/-! ## The stored value -/

theorem pay17_apply (v4 v6 v98 v104 v108 v111 v112 : FVec Ideal S1x512x512 .f32)
    (v121 v123 : Vec Ideal S1x512x512 .f32) (acc : Vec Ideal S1x1x1 .f32) :
    k0_pay17 v4 v6 v98 v104 v108 v111 v112 v121 v123 acc (ix3 0 0 0)
      = acc (ix3 0 0 0) + ∑ i : Fin 512, ∑ j : Fin 512,
          FloatOps.absf (F := Ideal) (φ := .f32)
            ((v98 (ix3 0 i j) + v112 (ix3 0 i j) * v111 (ix3 0 i j) + w 7 * bit (v121 (ix3 0 i j)) (v4 (ix3 0 i j)))
              - (v104 (ix3 0 i j) + w 6 * bit (v108 (ix3 0 i j)) (v6 (ix3 0 i j))
                  + w 7 * bit (v123 (ix3 0 i j)) (v6 (ix3 0 i j)))) * scale := by
  unfold k0_pay17
  simp only [shapeCast_self]
  refine (total_apply _ acc).trans ?_
  refine congrArg (acc (ix3 0 0 0) + ·) (Finset.sum_congr rfl fun i _ => Finset.sum_congr rfl fun j _ => ?_)
  simp only [absf_apply, subf_apply, addf_apply, mulf_apply, broadcast_apply, sitofp_apply, extui_apply, cmpf_apply, bit_eq]
  rfl

/-! ## The codes -/

/-- The first image's eight weighted bits, as the body accumulates them, are the pixel's code. -/
theorem code_first (A11 A00 A01 A02 A12 A22 A21 A20 A10 : Vec Ideal S1x512x512 .f32) (p : S1x512x512.Idx)
    (n : Fin 8 → EReal) (c : EReal) (hc : A11 p = c) (h0 : A00 p = n 0) (h1 : A01 p = n 1) (h2 : A02 p = n 2)
    (h3 : A12 p = n 3) (h4 : A22 p = n 4) (h5 : A21 p = n 5) (h6 : A20 p = n 6) (h7 : A10 p = n 7) :
    k0_pay12 (k0_pay3 A11) (k0_pay10 (k0_pay3 A11) (k0_pay5 A11 A00) (k0_pay8 A11 A01) (k0_pay9 (F := Ideal)) A02 A12) A22 A21 p
        + k0_pay16 (F := Ideal) p * k0_pay15 (k0_pay3 A11) A20 p + w 7 * bit (A10 p) (k0_pay3 A11 p)
      = code n c := by
  rw [pay12_apply, pay10_apply, pay5_apply, pay8_apply, pay9_apply, pay16_apply, pay15_apply, pay3_apply,
    hc, h0, h1, h2, h3, h4, h5, h6, h7]
  rfl

/-- The second image's likewise (its second neighbour's window reaches the comparison by another route). -/
theorem code_second (B11 B00 B01 B02 B12 B22 B21 B20 B10 : Vec Ideal S1x512x512 .f32) (p : S1x512x512.Idx)
    (n : Fin 8 → EReal) (c : EReal) (hc : B11 p = c) (h0 : B00 p = n 0) (h1 : B01 p = n 1) (h2 : B02 p = n 2)
    (h3 : B12 p = n 3) (h4 : B22 p = n 4) (h5 : B21 p = n 5) (h6 : B20 p = n 6) (h7 : B10 p = n 7) :
    k0_pay13 (k0_pay4 B11) (k0_pay11 (k0_pay4 B11) (k0_pay6 B11 B00) (k0_pay7 B01) B02 B12) B22 B21 p
        + w 6 * bit (k0_pay14 B20 p) (k0_pay4 B11 p) + w 7 * bit (B10 p) (k0_pay4 B11 p)
      = code n c := by
  rw [pay13_apply, pay11_apply, pay6_apply, pay7_apply, pay14_apply, pay4_apply,
    hc, h0, h1, h2, h3, h4, h5, h6, h7]
  rfl

/-! ## The results -/

/-- The total after a middle point is the total before it plus the plane's share. -/
theorem share_apply (x0 x1 : Vec Ideal S1x514x514 .f32) (acc : Vec Ideal S1x1x1 .f32) :
    share x0 x1 acc (ix3 0 0 0) = acc (ix3 0 0 0)
      + ∑ i : Fin 512, ∑ j : Fin 512, FloatOps.absf (F := Ideal) (φ := .f32)
          (code (nbs1 x0 i j) (x0 (ix3 0 ⟨i.val + 1, by omega⟩ ⟨j.val + 1, by omega⟩))
            - code (nbs1 x1 i j) (x1 (ix3 0 ⟨i.val + 1, by omega⟩ ⟨j.val + 1, by omega⟩))) * scale := by
  unfold share
  refine (pay17_apply _ _ _ _ _ _ _ _ _ acc).trans ?_
  refine congrArg (acc (ix3 0 0 0) + ·) (Finset.sum_congr rfl fun i _ => Finset.sum_congr rfl fun j _ => ?_)
  have hi := i.isLt
  have hj := j.isLt
  rw [code_first _ _ _ _ _ _ _ _ _ (ix3 0 i j) (nbs1 x0 i j) _
        (win_apply x0 1 1 _ i j (by omega) (by omega)) (win_apply x0 0 0 _ i j (by omega) (by omega))
        (win_apply x0 0 1 _ i j (by omega) (by omega)) (win_apply x0 0 2 _ i j (by omega) (by omega))
        (win_apply x0 1 2 _ i j (by omega) (by omega)) (win_apply x0 2 2 _ i j (by omega) (by omega))
        (win_apply x0 2 1 _ i j (by omega) (by omega)) (win_apply x0 2 0 _ i j (by omega) (by omega))
        (win_apply x0 1 0 _ i j (by omega) (by omega)),
      code_second _ _ _ _ _ _ _ _ _ (ix3 0 i j) (nbs1 x1 i j) _
        (win_apply x1 1 1 _ i j (by omega) (by omega)) (win_apply x1 0 0 _ i j (by omega) (by omega))
        (win_apply x1 0 1 _ i j (by omega) (by omega)) (win_apply x1 0 2 _ i j (by omega) (by omega))
        (win_apply x1 1 2 _ i j (by omega) (by omega)) (win_apply x1 2 2 _ i j (by omega) (by omega))
        (win_apply x1 2 1 _ i j (by omega) (by omega)) (win_apply x1 2 0 _ i j (by omega) (by omega))
        (win_apply x1 1 0 _ i j (by omega) (by omega))]

/-- The first point starts the total from zero. -/
theorem zeroAcc_apply : zeroAcc (F := Ideal) (ix3 0 0 0) = 0 := by
  unfold zeroAcc k0_pay2
  simp only [shapeCast_self]
  exact Ideal.ofBits_zero_f32

/-- The last point writes the square root of the total. -/
theorem root_apply (a : Vec Ideal S1x1x1 .f32) : root a (ix3 0 0 0) = Ideal.sqrt (a (ix3 0 0 0)) := rfl

end Cert.Lbp.Body

end
-- ==== Proof.LbpFold.lean ====
/-
  From one plane's share to the whole distance.

  A block of the padded planes listed one after the other that agrees, entry by entry, with plane t contributes exactly
  the specification's share of plane t: the neighbours and the centre of every pixel are read at the same places. So a
  middle point turns the total it finds into that total plus plane t's share.

  The running total over the 48 points is then plain arithmetic: it starts as zero plus the first plane's share, every
  later point adds its plane's share to what the point before left, so after the last point it is the sum of all 48
  shares; its square root is the distance as the plane-by-plane arrangement of the specification states it.
-/
import proofs.«133845_j39152921870850_2_alg».proof.Proof.LbpShareValue
import proofs.«133845_j39152921870850_2_alg».proof.Proof.LbpSpec

noncomputable section

namespace Cert.Lbp.Body

open Idealize.ShloMosaic Idealize.ShloMosaic.ValueIdx Cert.KernelIdeal Cert.KernelIdeal.Gen
open scoped BigOperators

/-! ## A block that is plane t -/

/-- The double sum over the pixels of a pair of blocks that agree with plane t of the two lists of planes is the
    specification's share of plane t. -/
theorem blockSum_eq_planeSum (Q0 Q1 : (⟨3, ![48, 514, 514]⟩ : Shape).Idx → EReal) (t : Fin 48)
    (x0 x1 : Vec Ideal S1x514x514 .f32)
    (h0 : ∀ i j : Fin 514, x0 (ix3 0 i j) = Q0 (ix3 t i j))
    (h1 : ∀ i j : Fin 514, x1 (ix3 0 i j) = Q1 (ix3 t i j)) :
    (∑ i : Fin 512, ∑ j : Fin 512, FloatOps.absf (F := Ideal) (φ := .f32)
        (code (nbs1 x0 i j) (x0 (ix3 0 ⟨i.val + 1, by omega⟩ ⟨j.val + 1, by omega⟩))
          - code (nbs1 x1 i j) (x1 (ix3 0 ⟨i.val + 1, by omega⟩ ⟨j.val + 1, by omega⟩))) * scale)
      = planeSum Q0 Q1 t := by
  unfold planeSum
  refine Finset.sum_congr rfl fun i _ => Finset.sum_congr rfl fun j _ => ?_
  have e0 : nbs1 x0 i j = nbs3 Q0 t i j := funext fun k => h0 _ _
  have e1 : nbs1 x1 i j = nbs3 Q1 t i j := funext fun k => h1 _ _
  rw [e0, e1, h0, h1]

/-- So a middle point whose blocks are plane t turns the total it finds into that total plus plane t's share. -/
theorem share_eq_add_planeSum (Q0 Q1 : (⟨3, ![48, 514, 514]⟩ : Shape).Idx → EReal) (t : Fin 48)
    (x0 x1 : Vec Ideal S1x514x514 .f32)
    (h0 : ∀ i j : Fin 514, x0 (ix3 0 i j) = Q0 (ix3 t i j))
    (h1 : ∀ i j : Fin 514, x1 (ix3 0 i j) = Q1 (ix3 t i j)) (acc : Vec Ideal S1x1x1 .f32) :
    share x0 x1 acc (ix3 0 0 0) = acc (ix3 0 0 0) + planeSum Q0 Q1 t :=
  (share_apply x0 x1 acc).trans (congrArg (acc (ix3 0 0 0) + ·) (blockSum_eq_planeSum Q0 Q1 t x0 x1 h0 h1))

/-! ## The running total over the 48 points -/

/-- A sequence that starts as zero plus the first term and then adds one term per step ends as the sum of all terms:
    the recurrence written from each point to the next. -/
theorem runningTotal_succ (s a : Fin 48 → EReal)
    (hfirst : a ⟨0, by omega⟩ = 0 + s ⟨0, by omega⟩)
    (hstep : ∀ n (h : n + 1 < 48), a ⟨n + 1, h⟩ = a ⟨n, by omega⟩ + s ⟨n + 1, h⟩)
    (tl : Fin 48) (htl : tl.val = 47) : a tl = ∑ t : Fin 48, s t := by
  have key : ∀ n (hn : n < 48), a ⟨n, hn⟩ = ∑ k ∈ Finset.range (n + 1), (if h : k < 48 then s ⟨k, h⟩ else 0) := by
    intro n
    induction n with
    | zero =>
      intro hn
      rw [Finset.sum_range_one, dif_pos hn, hfirst, zero_add]
    | succ n ih =>
      intro hn
      rw [Finset.sum_range_succ, dif_pos hn, ← ih (by omega), hstep n hn]
  have e : tl = ⟨47, by decide⟩ := Fin.ext htl
  rw [e, key 47 (by decide)]
  show ∑ k ∈ Finset.range 48, (if h : k < 48 then s ⟨k, h⟩ else 0) = _
  rw [← Fin.sum_univ_eq_sum_range (fun k => if h : k < 48 then s ⟨k, h⟩ else 0) 48]
  exact Finset.sum_congr rfl fun t _ => dif_pos t.isLt

/-- The same with the recurrence written from each point back to the one before. -/
theorem runningTotal (s a : Fin 48 → EReal)
    (hfirst : ∀ t : Fin 48, t.val = 0 → a t = 0 + s t)
    (hstep : ∀ t : Fin 48, ∀ _ht : t.val ≠ 0, a t = a ⟨t.val - 1, by have := t.isLt; omega⟩ + s t)
    (tl : Fin 48) (htl : tl.val = 47) : a tl = ∑ t : Fin 48, s t :=
  runningTotal_succ s a (hfirst ⟨0, by omega⟩ rfl) (fun n h => hstep ⟨n + 1, h⟩ (Nat.succ_ne_zero n)) tl htl

/-- When the terms are the planes' shares, the square root of the final total is the distance. -/
theorem sqrt_runningTotal_succ (Q0 Q1 : (⟨3, ![48, 514, 514]⟩ : Shape).Idx → EReal) (a : Fin 48 → EReal)
    (hfirst : a ⟨0, by omega⟩ = 0 + planeSum Q0 Q1 ⟨0, by omega⟩)
    (hstep : ∀ n (h : n + 1 < 48), a ⟨n + 1, h⟩ = a ⟨n, by omega⟩ + planeSum Q0 Q1 ⟨n + 1, h⟩)
    (tl : Fin 48) (htl : tl.val = 47) : Ideal.sqrt (a tl) = totalByPlanes Q0 Q1 := by
  rw [runningTotal_succ (planeSum Q0 Q1) a hfirst hstep tl htl]
  rfl

theorem sqrt_runningTotal (Q0 Q1 : (⟨3, ![48, 514, 514]⟩ : Shape).Idx → EReal) (a : Fin 48 → EReal)
    (hfirst : ∀ t : Fin 48, t.val = 0 → a t = 0 + planeSum Q0 Q1 t)
    (hstep : ∀ t : Fin 48, ∀ _ht : t.val ≠ 0,
      a t = a ⟨t.val - 1, by have := t.isLt; omega⟩ + planeSum Q0 Q1 t)
    (tl : Fin 48) (htl : tl.val = 47) : Ideal.sqrt (a tl) = totalByPlanes Q0 Q1 := by
  rw [runningTotal (planeSum Q0 Q1) a hfirst hstep tl htl]
  rfl

end Cert.Lbp.Body

end
-- ==== Proof.LbpKernelPoints.lean ====
/-
  What each grid point leaves in the running total, and what the last point writes out.

  The body keeps one number, the running total, in a scratch cell that survives from one grid point to the next.
  At the first point it overwrites the cell with zero and then adds the first plane's share; at every later point
  it adds that point's plane's share to what the point before left; at the last point it also writes the square
  root of the new total to the output cell. Read off the stores the run of each case found, these are three
  equations between the cell's contents and the terms share, zeroAcc and root; and a window's block at point t is
  plane t of the padded planes. Together they say: after point t the cell holds the sum of the shares of planes
  0, …, t, and the output cell ends at the square root of the sum over all 48 planes.
-/
import proofs.«133845_j39152921870850_2_alg».proof.Proof.Gen.KernelIdeal.Frame
import proofs.«133845_j39152921870850_2_alg».proof.Proof.LbpSpec
import proofs.«133845_j39152921870850_2_alg».proof.Proof.LbpPad
import proofs.«133845_j39152921870850_2_alg».proof.Proof.LbpShare
import proofs.«133845_j39152921870850_2_alg».proof.Proof.LbpShareValue
import proofs.«133845_j39152921870850_2_alg».proof.Proof.LbpFold
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Lbp.Ker

open Cert.KernelIdeal Cert.KernelIdeal.Gen Cert.Lbp.Body Idealize.ShloMosaic.ValueIdx

variable {F : FTy → Type} [FloatOps F]

/-- The offsets of a load or store of a whole buffer are all zero. -/
theorem hz3 : (![0, 0, 0] : Fin 3 → Nat) = fun _ => 0 := funext fun a => by fin_cases a <;> rfl

/-! ## The three cases, read off the stores each case's run found -/

/-- A middle point leaves in the scratch cell the total it found plus its plane's share. -/
theorem scratch_B (c : Dev nD) (i : grid0.Coords) (a1 : Memref sig .tc .vmem S1x514x514 .f32) (h1 : a1.IsWhole)
    (a2 : Memref sig .tc .vmem S1x514x514 .f32) (h2 : a2.IsWhole) (a3 : Memref sig .tc .vmem S1x1x1 .f32) (h3 : a3.IsWhole)
    (a4 : Memref sig .tc .vmem S1x1x1 .f32) (h4 : a4.IsWhole) (hc0 : ¬cond0_0 i) (hc1 : ¬cond0_1 i)
    (x0 x1 : Vec F S1x514x514 .f32) (xs0 : Vec F S1x1x1 .f32) :
    sout0_B_0 c i a1 h1 a2 h2 a3 h3 a4 h4 hc0 hc1 x0 x1 xs0 = share x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz3]
  simp only [View.readAt_eq_ld, h1.read_unread, h2.read_unread, h4.read_unread, View.ld_unit_zero (S := S1x1x1) hz3]
  rfl

/-- The first point stores zero in the scratch cell, reads it back, and leaves zero plus its plane's share. -/
theorem scratch_A (c : Dev nD) (i : grid0.Coords) (a1 : Memref sig .tc .vmem S1x514x514 .f32) (h1 : a1.IsWhole)
    (a2 : Memref sig .tc .vmem S1x514x514 .f32) (h2 : a2.IsWhole) (a3 : Memref sig .tc .vmem S1x1x1 .f32) (h3 : a3.IsWhole)
    (a4 : Memref sig .tc .vmem S1x1x1 .f32) (h4 : a4.IsWhole) (hc0 : cond0_0 i) (hc1 : ¬cond0_1 i)
    (x0 x1 : Vec F S1x514x514 .f32) :
    sout0_A_0 c i a1 h1 a2 h2 a3 h3 a4 h4 hc0 hc1 x0 x1 = share x0 x1 zeroAcc := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1x1) hz3]
  simp only [View.readAt_eq_ld, h1.read_unread, h2.read_unread, View.readCov_unit_zero (S := S1x1x1) _ hz3]
  rfl

/-- The last point leaves in the scratch cell the total it found plus its plane's share, -/
theorem scratch_C (c : Dev nD) (i : grid0.Coords) (a1 : Memref sig .tc .vmem S1x514x514 .f32) (h1 : a1.IsWhole)
    (a2 : Memref sig .tc .vmem S1x514x514 .f32) (h2 : a2.IsWhole) (a3 : Memref sig .tc .vmem S1x1x1 .f32) (h3 : a3.IsWhole)
    (a4 : Memref sig .tc .vmem S1x1x1 .f32) (h4 : a4.IsWhole) (hc0 : ¬cond0_0 i) (hc1 : cond0_1 i)
    (x0 x1 : Vec F S1x514x514 .f32) (xs0 : Vec F S1x1x1 .f32) :
    sout0_C_0 c i a1 h1 a2 h2 a3 h3 a4 h4 hc0 hc1 x0 x1 xs0 = share x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz3]
  simp only [View.readAt_eq_ld, h1.read_unread, h2.read_unread, h4.read_unread, View.ld_unit_zero (S := S1x1x1) hz3]
  rfl

/-- and writes the square root of that new total to the output cell. -/
theorem out_C (c : Dev nD) (i : grid0.Coords) (a1 : Memref sig .tc .vmem S1x514x514 .f32) (h1 : a1.IsWhole)
    (a2 : Memref sig .tc .vmem S1x514x514 .f32) (h2 : a2.IsWhole) (a3 : Memref sig .tc .vmem S1x1x1 .f32) (h3 : a3.IsWhole)
    (a4 : Memref sig .tc .vmem S1x1x1 .f32) (h4 : a4.IsWhole) (hc0 : ¬cond0_0 i) (hc1 : cond0_1 i)
    (x0 x1 : Vec F S1x514x514 .f32) (xs0 : Vec F S1x1x1 .f32) :
    out0_C_2 c i a1 h1 a2 h2 a3 h3 a4 h4 hc0 hc1 x0 x1 xs0 = root (share x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz3]
  simp only [View.readAt_eq_ld, h1.read_unread, h2.read_unread, h4.read_unread, View.ld_unit_zero (S := S1x1x1) hz3,
    View.readCov_unit_zero (S := S1x1x1) _ hz3]
  rfl

/-! ## A window's block at point t is plane t -/

variable (m : (ℓ : Loc nD τ sig) → Buf (Elt F) ℓ)

/-- Where the two input windows sit at point t: plane t, at the top-left corner. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The first window's block at point t, read at (0, i, j), is the first region input at (t, i, j). -/
theorem iblk0_apply (c : Dev nD) (t : Fin cfg0.N) (i j : Fin 514) :
    (iblk m c 0 t : S1x514x514.Idx → F .f32) (ix3 (0 : Fin 1) i j)
      = (V m c main_v1 : Cert.Lbp.Planes.Idx → F .f32) (ix3 (⟨t.val, lt_of_lt_of_eq t.isLt N_0⟩ : Fin 48) i j) := by
  unfold iblk
  rw [View.read_apply]
  show V m c main_v1 _ = V m c main_v1 _
  congr 1
  funext a
  apply Fin.ext
  match a with
  | ⟨0, _⟩ => show win0_0.index t 0 * 1 + 1 * 0 = t.val; rw [(index0 t).1]; omega
  | ⟨1, _⟩ => show win0_0.index t 1 * 514 + 1 * i.val = i.val; rw [(index0 t).2.1]; omega
  | ⟨2, _⟩ => show win0_0.index t 2 * 514 + 1 * j.val = j.val; rw [(index0 t).2.2]; omega

/-- The second window's block at point t, read at (0, i, j), is the second region input at (t, i, j). -/
theorem iblk1_apply (c : Dev nD) (t : Fin cfg0.N) (i j : Fin 514) :
    (iblk m c 1 t : S1x514x514.Idx → F .f32) (ix3 (0 : Fin 1) i j)
      = (V m c main_v3 : Cert.Lbp.Planes.Idx → F .f32) (ix3 (⟨t.val, lt_of_lt_of_eq t.isLt N_0⟩ : Fin 48) i j) := by
  unfold iblk
  rw [View.read_apply]
  show V m c main_v3 _ = V m c main_v3 _
  congr 1
  funext a
  apply Fin.ext
  match a with
  | ⟨0, _⟩ => show win0_1.index t 0 * 1 + 1 * 0 = t.val; rw [(index1 t).1]; omega
  | ⟨1, _⟩ => show win0_1.index t 1 * 514 + 1 * i.val = i.val; rw [(index1 t).2.1]; omega
  | ⟨2, _⟩ => show win0_1.index t 2 * 514 + 1 * j.val = j.val; rw [(index1 t).2.2]; omega

/-! ## What the scratch and the output cell hold after each point -/

/-- After the first point: zero plus the first plane's share. -/
theorem scratch_first (c : Dev nD) (t : Fin cfg0.N) (h0 : t.val % 48 = 0) (h1 : ¬t.val % 48 = 47) :
    (outsAt0 m c t.val t.isLt).2 = share (iblk m c 0 t) (iblk m c 1 t) zeroAcc := by
  rw [outsAt0_A m c t h0 h1]
  exact scratch_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- After a middle point: what the point before left plus this plane's share. -/
theorem scratch_middle (c : Dev nD) (t : Fin cfg0.N) (h0 : ¬t.val % 48 = 0) (h1 : ¬t.val % 48 = 47) :
    (outsAt0 m c t.val t.isLt).2 = share (iblk m c 0 t) (iblk m c 1 t)
      (outsAt0 m c (t.val - 1) (Nat.lt_of_le_of_lt (Nat.sub_le _ _) t.isLt)).2 := by
  rw [outsAt0_B m c t h0 h1]
  exact scratch_B c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- After the last point: the same in the scratch, -/
theorem scratch_last (c : Dev nD) (t : Fin cfg0.N) (h0 : ¬t.val % 48 = 0) (h1 : t.val % 48 = 47) :
    (outsAt0 m c t.val t.isLt).2 = share (iblk m c 0 t) (iblk m c 1 t)
      (outsAt0 m c (t.val - 1) (Nat.lt_of_le_of_lt (Nat.sub_le _ _) t.isLt)).2 := by
  rw [outsAt0_C m c t h0 h1]
  exact scratch_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-- and its square root in the output cell. -/
theorem out_last (c : Dev nD) (t : Fin cfg0.N) (h0 : ¬t.val % 48 = 0) (h1 : t.val % 48 = 47) :
    (outsAt0 m c t.val t.isLt).1 = root (outsAt0 m c t.val t.isLt).2 := by
  rw [scratch_last m c t h0 h1, outsAt0_C m c t h0 h1]
  exact out_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-! ## The total -/

section Total

variable (m : (ℓ : Loc nD τ sig) → Buf (Elt Ideal) ℓ)

/-- The two region inputs, as extended reals indexed by (plane, row, column). -/
abbrev Q0 (c : Dev nD) : Cert.Lbp.Planes.Idx → EReal := V m c main_v1
abbrev Q1 (c : Dev nD) : Cert.Lbp.Planes.Idx → EReal := V m c main_v3

/-- The running total after point t: the scratch cell's one entry. -/
def totalAt (c : Dev nD) (t : Fin 48) : EReal :=
  (outsAt0 m c t.val (lt_of_lt_of_eq t.isLt N_0.symm)).2 (ix3 0 0 0)

/-- After the first point it is zero plus plane 0's share. -/
theorem totalAt_first (c : Dev nD) (t : Fin 48) (ht : t.val = 0) :
    totalAt m c t = 0 + planeSum (Q0 m c) (Q1 m c) t := by
  have e := scratch_first m c ⟨t.val, lt_of_lt_of_eq t.isLt N_0.symm⟩ (by show t.val % 48 = 0; omega) (by show ¬t.val % 48 = 47; omega)
  have e2 := share_eq_add_planeSum (Q0 m c) (Q1 m c) t (iblk m c 0 ⟨t.val, lt_of_lt_of_eq t.isLt N_0.symm⟩)
    (iblk m c 1 ⟨t.val, lt_of_lt_of_eq t.isLt N_0.symm⟩)
    (fun i j => iblk0_apply m c ⟨t.val, lt_of_lt_of_eq t.isLt N_0.symm⟩ i j)
    (fun i j => iblk1_apply m c ⟨t.val, lt_of_lt_of_eq t.isLt N_0.symm⟩ i j) (zeroAcc (F := Ideal))
  rw [zeroAcc_apply] at e2
  exact (congrFun e (ix3 0 0 0)).trans e2

/-- After every later point it is the total after the point before plus this plane's share. -/
theorem totalAt_step (c : Dev nD) (t : Fin 48) (ht : t.val ≠ 0) :
    totalAt m c t = totalAt m c ⟨t.val - 1, by have := t.isLt; omega⟩ + planeSum (Q0 m c) (Q1 m c) t := by
  have hlt := t.isLt
  have e : (outsAt0 m c t.val (lt_of_lt_of_eq t.isLt N_0.symm)).2
      = share (iblk m c 0 ⟨t.val, lt_of_lt_of_eq t.isLt N_0.symm⟩) (iblk m c 1 ⟨t.val, lt_of_lt_of_eq t.isLt N_0.symm⟩)
          (outsAt0 m c (t.val - 1) (Nat.lt_of_le_of_lt (Nat.sub_le _ _) (lt_of_lt_of_eq t.isLt N_0.symm))).2 := by
    by_cases h1 : t.val % 48 = 47
    · exact scratch_last m c ⟨t.val, lt_of_lt_of_eq t.isLt N_0.symm⟩ (by show ¬t.val % 48 = 0; omega) h1
    · exact scratch_middle m c ⟨t.val, lt_of_lt_of_eq t.isLt N_0.symm⟩ (by show ¬t.val % 48 = 0; omega) h1
  refine (congrFun e (ix3 0 0 0)).trans ?_
  exact share_eq_add_planeSum (Q0 m c) (Q1 m c) t (iblk m c 0 ⟨t.val, lt_of_lt_of_eq t.isLt N_0.symm⟩)
    (iblk m c 1 ⟨t.val, lt_of_lt_of_eq t.isLt N_0.symm⟩)
    (fun i j => iblk0_apply m c ⟨t.val, lt_of_lt_of_eq t.isLt N_0.symm⟩ i j)
    (fun i j => iblk1_apply m c ⟨t.val, lt_of_lt_of_eq t.isLt N_0.symm⟩ i j)
    (outsAt0 m c (t.val - 1) (Nat.lt_of_le_of_lt (Nat.sub_le _ _) (lt_of_lt_of_eq t.isLt N_0.symm))).2

/-- The output cell after the last point: the square root of the sum of all 48 planes' shares. -/
theorem out_final (c : Dev nD) (t : Fin cfg0.N) (ht : t.val = 47) :
    (outsAt0 m c t.val t.isLt).1 (ix3 0 0 0) = totalByPlanes (Q0 m c) (Q1 m c) := by
  refine (congrFun (out_last m c t (by omega) (by omega)) (ix3 0 0 0)).trans ?_
  refine (root_apply _).trans ?_
  exact sqrt_runningTotal (Q0 m c) (Q1 m c) (totalAt m c) (totalAt_first m c) (totalAt_step m c)
    ⟨t.val, lt_of_lt_of_eq t.isLt N_0⟩ ht

end Total

end Cert.Lbp.Ker

end
-- ==== Proof.LbpKernelRun.lean ====
/-
  The kernel program's run, read as a value.

  The output cell is written back to the region's [1,1,1] result array at the last grid point only, and its one block
  is the whole array; so the array ends holding what the last point left in the cell: the square root of the sum of
  the 48 planes' shares, the planes being those of the two padded images. The host operation after the region hands
  that one entry on as the program's scalar result, and the two argument images end as they began.
-/
import proofs.«133845_j39152921870850_2_alg».proof.Proof.LbpKernelHost
import proofs.«133845_j39152921870850_2_alg».proof.Proof.LbpKernelPoints

noncomputable section

open Idealize.ShloMosaic Idealize.ShloMosaic.TcCoe Idealize.SL.Sem
open Idealize.ShloMosaic.Pipeline (Dat)

namespace Cert.Lbp.Ker

open Cert.KernelIdeal Cert.KernelIdeal.Gen Idealize.ShloMosaic.ValueIdx

variable (m : (ℓ : Loc nD τ sig) → Buf (Elt Ideal) ℓ) (ρ : Dev nD → PrngReg)

/-- What the region's result array ends holding: the total, at its one index. -/
abbrev result (c : Dev nD) : Buf (Elt Ideal) ((c : Thread nD τ).loc main_v4) :=
  fun _ => totalByPlanes (Q0 m c) (Q1 m c)

/-- The [1,1,1] shape has one index. -/
theorem idx111 (j : S1x1x1.Idx) : j = ix3 0 0 0 := by
  funext a
  apply Fin.ext
  match a with
  | ⟨0, _⟩ => show (j 0).val = 0; have h : (j 0).val < 1 := (j 0).isLt; omega
  | ⟨1, _⟩ => show (j 1).val = 0; have h : (j 1).val < 1 := (j 1).isLt; omega
  | ⟨2, _⟩ => show (j 2).val = 0; have h : (j 2).val < 1 := (j 2).isLt; omega

/-- After the last point the output cell holds the total. -/
theorem outs_last (c : Dev nD) (t : Fin cfg0.N) (h47 : t.val = 47) : (outsAt0 m c t.val t.isLt).1 = result m c :=
  funext fun j => (congrArg (outsAt0 m c t.val t.isLt).1 (idx111 j)).trans (out_final m c t h47)

/-- A cell holding one number at every index, restricted to a block, holds that number at every index; so does an
    array holding that number everywhere, read through the block. This holds for any number. -/
theorem cut_const_eq_read_const (t : Fin cfg0.N) (T : EReal) :
    (cfg0.win 2).cut (grid0.coords t) (fun _ => T)
      = ((cfg0.win 2).blk t).view.read (Elt Ideal) (fun _ => T) := by
  funext y
  rfl

/-- The one write-back, at the last point, writes the total. -/
theorem flushed_eq (c : Dev nD) (t : Fin cfg0.N) (hf : (cfg0.win 2).flush t = true) :
    (dats m 0 c).flushed 2 t = ((cfg0.win 2).blk t).view.read (Elt Ideal) (result m c) := by
  have hN : cfg0.N = 48 := N_0
  have h47 : t.val = 47 := by have := (flush0_2 t).mp hf; have := t.isLt; omega
  show (cfg0.win 2).cut (grid0.coords t) ((dats m 0 c).after 2 t) = _
  rw [after0_2, outs_last m c t h47]
  exact cut_const_eq_read_const t (totalByPlanes (Q0 m c) (Q1 m c))

/-- The last grid point. -/
abbrev tLast : Fin cfg0.N := ⟨47, by rw [show cfg0.N = 48 from N_0]; omega⟩

/-- So the region's result array ends holding the total: the last point's block is the whole array. -/
theorem final (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v4).slice (win0_2.rect tLast)).set
      rw [View.set_slice_whole, Rect.mem_set_unit]
      intro a
      have h0 : (i 0 : Nat) < 1 := (i 0).isLt
      have h1 : (i 1 : Nat) < 1 := (i 1).isLt
      have h2 : (i 2 : Nat) < 1 := (i 2).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega
      | ⟨2, _⟩ => show win0_2.index tLast 2 * win0_2.size 2 ≤ (i 2 : Nat) ∧ (i 2 : Nat) < win0_2.index tLast 2 * win0_2.size 2 + win0_2.xsize (grid0.coords tLast) 2
                  rw [show win0_2.index tLast 2 * win0_2.size 2 = 0 from by decide +kernel, show win0_2.xsize (grid0.coords tLast) 2 = 1 from by decide +kernel]; omega⟩

/-- The program's scalar result: the total of the two padded images' planes. -/
theorem value_v5 (c : Dev nD) :
    Pipeline.afterTail₀ cfgs (dats m) 0 (V0 m) [hostOps1] c main_v5
      = fun _ => totalByPlanes (planes (F := Ideal) (pad (m ((c : Thread nD τ).loc main_arg0))))
          (planes (F := Ideal) (pad (m ((c : Thread nD τ).loc main_arg1)))) := by
  rw [tail_v5 m (dats m) c, final m c]
  show (fun _ => totalByPlanes (Q0 m c) (Q1 m c)) = _
  rw [show Q0 m c = planes (F := Ideal) (pad (m ((c : Thread nD τ).loc main_arg0))) from V_main_v1 m c,
    show Q1 m c = planes (F := Ideal) (pad (m ((c : Thread nD τ).loc main_arg1))) from V_main_v3 m c]

/-- From any memory with zero counters every weakly fair execution of the program ends with its scalar result at the
    total of the two padded images' planes, and with the two argument images unchanged. -/
theorem run : θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread _ _).loc Cert.KernelIdeal.main_v5)
          = (fun _ => Cert.Lbp.totalByPlanes (Cert.Lbp.planes (F := Ideal) (Cert.Lbp.pad (m ((c.tc : Thread _ _).loc Cert.KernelIdeal.main_arg0))))
              (Cert.Lbp.planes (F := Ideal) (Cert.Lbp.pad (m ((c.tc : Thread _ _).loc Cert.KernelIdeal.main_arg1)))))
        ∧ r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1)) :=
  (θ_run defs _ _).mono (fun _ h c =>
    ⟨((h c).2 main_v5 (Pipeline.mem_restRefs_of main_v5 (by decide) (by decide))).trans (value_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Lbp.Ker

end
-- ==== Proof.LibHostLine.lean ====
/-
  Reading a straight line of host operations one operation at a time.

  When every operation of a line writes one buffer of its own, what the line leaves in the buffer the `k`-th
  operation writes is that operation's function of what the line leaves in its operands: the operations after the
  `k`-th write neither its result nor (writing once only, after their operands are written) its operands. The
  lemmas state this for any line whose written references are listed, one per operation, in order.
-/
import Idealize.ShloMosaic.Lib.StableHlo.Run
import Mathlib.Data.List.Forall2

namespace Cert.CubePad.Line

open Idealize.ShloMosaic Idealize.ShloMosaic.StableHlo

variable {τ : Topo} {sig : RefSig} {Val : EltTy → Type}

/-- A line run in two parts. -/
theorem after_append (l₁ l₂ : List (HloOp τ sig Val)) (V : Valuation τ sig Val) :
    after (l₁ ++ l₂) V = after l₂ (after l₁ V) := by
  induction l₁ generalizing V with
  | nil => rfl
  | cons op l ih => exact ih _

/-- The line `ops` writes the references `W`, one each, in order. -/
abbrev Writes (ops : List (HloOp τ sig Val)) (W : List (Ref sig .tc)) : Prop :=
  List.Forall₂ (fun op r => op.writes = {Proc.devRef (τ := τ) .tc r}) ops W

/-- A reference the line does not write keeps its contents. -/
theorem Writes.keeps {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | cons e _ ih =>
    intro V r hr
    rw [after_cons, ih _ (fun hm => hr (List.mem_cons_of_mem _ hm)), HloOp.result_of_not_mem]
    rw [e, Finset.mem_singleton]
    exact devRef_ne_of_ne fun e' => hr (e' ▸ List.mem_cons_self)

/-- At a reference the operations from the `k`-th on do not write, the first `k` operations decide the contents. -/
theorem Writes.read_take {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  conv_lhs => rw [← List.take_append_drop k ops]
  rw [after_append]
  exact Writes.keeps (List.forall₂_drop k h) _ hr

/-- At the reference the `k`-th operation writes (and no later one): that operation's result from what the first
    `k` operations leave. -/
theorem Writes.read_at {ops : List (HloOp τ sig Val)} {W : List (Ref sig .tc)} (h : Writes ops W) (V : Valuation τ sig Val)
    (k : Nat) (op : HloOp τ sig Val) (hk : ops[k]? = some op) {y : Ref sig .tc} (hy : y ∉ W.drop (k + 1)) :
    after ops V (Proc.devRef .tc y) = op.result (after (ops.take k) V) (Proc.devRef .tc y) := by
  rw [h.read_take (k + 1) V hy, List.take_succ, hk, after_append]
  rfl

/-- A one-operand operation, the `k`-th of the line: its result buffer ends at its function of what its operand's
    buffer ends at. -/
theorem Writes.unary_at {ops : List (HloOp τ sig Val)} {W : List (Ref sig .tc)} (h : Writes ops W) (V : Valuation τ sig Val)
    (k : Nat) (x y : Ref sig .tc) (f : x.ty.Contents Val → y.ty.Contents Val) (hx hy)
    (hk : ops[k]? = some (unary x y f hx hy)) (hyW : y ∉ W.drop (k + 1)) (hxW : x ∉ W.drop k) :
    after ops V (Proc.devRef .tc y) = f (after ops V (Proc.devRef .tc x)) := by
  rw [h.read_at V k _ hk hyW, unary_result, h.read_take k V hxW]

/-- A reshape, the `k`-th of the line. -/
theorem Writes.reshape_at {ops : List (HloOp τ sig Val)} {W : List (Ref sig .tc)} (h : Writes ops W) (V : Valuation τ sig Val)
    (k : Nat) (x y : Ref sig .tc) (he : x.ty.elt = y.ty.elt) (hn : x.ty.shape.ShapeCasts y.ty.shape) (hx hy)
    (hk : ops[k]? = some (reshape x y he hn hx hy)) (hyW : y ∉ W.drop (k + 1)) (hxW : x ∉ W.drop k) :
    after ops V (Proc.devRef .tc y) = fun i => he ▸ shapeCast y.ty.shape (after ops V (Proc.devRef .tc x)) hn i := by
  rw [h.read_at V k _ hk hyW, reshape_result, h.read_take k V hxW]

/-- An operation of several operands, the `k`-th of the line. -/
theorem Writes.nary_at {ops : List (HloOp τ sig Val)} {W : List (Ref sig .tc)} (h : Writes ops W) (V : Valuation τ sig Val)
    (k : Nat) {n : Nat} (xs : Fin n → Ref sig .tc) (y : Ref sig .tc)
    (f : ((j : Fin n) → (xs j).ty.Contents Val) → y.ty.Contents Val) (hxs hy)
    (hk : ops[k]? = some (nary xs y f hxs hy)) (hyW : y ∉ W.drop (k + 1)) (hxW : ∀ j, xs j ∉ W.drop k) :
    after ops V (Proc.devRef .tc y) = f (fun j => after ops V (Proc.devRef .tc (xs j))) := by
  rw [h.read_at V k _ hk hyW, nary_result]
  exact congrArg f (funext fun j => (h.read_take k V (hxW j)).symm)

/-- A reference the line never writes (an argument) keeps its contents. -/
theorem Writes.arg {ops : List (HloOp τ sig Val)} {W : List (Ref sig .tc)} (h : Writes ops W) (V : Valuation τ sig Val)
    {r : Ref sig .tc} (hr : r ∉ W) : after ops V (Proc.devRef .tc r) = V (Proc.devRef .tc r) :=
  h.keeps V hr

end Cert.CubePad.Line
-- ==== Proof.LibHostLineMore.lean ====
/-
  Reading a straight line of host operations one operation at a time: the operations of no operand, of two and of three.

  As for an operation of one operand: when every operation of the line writes one reference of its own, what the line
  leaves in the reference its k-th operation writes is that operation's function of what the line leaves in its operands,
  because no later operation writes the result, and none from the k-th on writes an operand. Also: two lines that each write
  their own listed references, run one after the other, write the two lists in order; and, for a line written out as a literal
  list, its three side facts (what it writes, that it stays on TensorCore references, that it allocates nothing) each by one pass.
-/
import proofs.«133845_j39152921870850_2_alg».proof.Proof.LibHostLine

namespace Cert.Line

open Idealize.ShloMosaic Idealize.ShloMosaic.StableHlo Cert.CubePad.Line

variable {τ : Topo} {sig : RefSig} {Val : EltTy → Type}

/-- Two lines, each writing its own listed references in order, written one after the other. -/
theorem writes_append {l₁ l₂ : List (HloOp τ sig Val)} {W₁ W₂ : List (Ref sig .tc)}
    (h₁ : Writes l₁ W₁) (h₂ : Writes l₂ W₂) : Writes (l₁ ++ l₂) (W₁ ++ W₂) := by
  induction h₁ with
  | nil => exact h₂
  | cons e _ ih => exact List.Forall₂.cons e ih

/-- An operation of no operand, the k-th of the line: its result reference ends at its value. -/
theorem nullary_at {ops : List (HloOp τ sig Val)} {W : List (Ref sig .tc)} (h : Writes ops W) (V : Valuation τ sig Val)
    (k : Nat) (y : Ref sig .tc) (v : y.ty.Contents Val) (hy)
    (hk : ops[k]? = some (nullary y v hy)) (hyW : y ∉ W.drop (k + 1)) :
    after ops V (Proc.devRef .tc y) = v := by
  rw [h.read_at V k _ hk hyW, nullary_result]

/-- An operation of two operands, the k-th of the line: its result reference ends at its function of what its operands'
    references end at. -/
theorem binary_at {ops : List (HloOp τ sig Val)} {W : List (Ref sig .tc)} (h : Writes ops W) (V : Valuation τ sig Val)
    (k : Nat) (a b y : Ref sig .tc) (f : a.ty.Contents Val → b.ty.Contents Val → y.ty.Contents Val) (ha hb hy)
    (hk : ops[k]? = some (binary a b y f ha hb hy)) (hyW : y ∉ W.drop (k + 1)) (haW : a ∉ W.drop k) (hbW : b ∉ W.drop k) :
    after ops V (Proc.devRef .tc y) = f (after ops V (Proc.devRef .tc a)) (after ops V (Proc.devRef .tc b)) := by
  rw [h.read_at V k _ hk hyW, binary_result, h.read_take k V haW, h.read_take k V hbW]

/-- An operation of three operands, the k-th of the line. -/
theorem ternary_at {ops : List (HloOp τ sig Val)} {W : List (Ref sig .tc)} (h : Writes ops W) (V : Valuation τ sig Val)
    (k : Nat) (c a b y : Ref sig .tc)
    (f : c.ty.Contents Val → a.ty.Contents Val → b.ty.Contents Val → y.ty.Contents Val) (hc ha hb hy)
    (hk : ops[k]? = some (ternary c a b y f hc ha hb hy)) (hyW : y ∉ W.drop (k + 1))
    (hcW : c ∉ W.drop k) (haW : a ∉ W.drop k) (hbW : b ∉ W.drop k) :
    after ops V (Proc.devRef .tc y)
      = f (after ops V (Proc.devRef .tc c)) (after ops V (Proc.devRef .tc a)) (after ops V (Proc.devRef .tc b)) := by
  rw [h.read_at V k _ hk hyW, ternary_result, h.read_take k V hcW, h.read_take k V haW, h.read_take k V hbW]

/-! ## A literal line's three facts, each by one pass over the list

For a line written out as a literal list of the builders' operations: that it writes the listed references, one each, in order
(each builder's written set is the singleton of its result reference, by definition); that it touches TensorCore references only
(each builder's own lemma); that it allocates nothing (each builder's fresh set is empty, by definition). -/

/-- Closes `Writes ops W` for literal lists of equal length: one `rfl` per operation. -/
macro "line_writes" : tactic =>
  `(tactic| repeat (first | exact List.Forall₂.nil | refine List.Forall₂.cons rfl ?_))

/-- Closes `ops.Forall fun op => op.bufs ⊆ tcRefs τ sig` for a literal list of the builders' operations. -/
macro "line_sub" : tactic =>
  `(tactic| simp only [List.Forall, nullary_bufs_sub, unary_bufs_sub, binary_bufs_sub, ternary_bufs_sub, nary_bufs_sub, and_self])

/-- Closes `ops.Forall fun op => op.fresh = ∅` for a literal list of the builders' operations. -/
macro "line_fresh" : tactic =>
  `(tactic| (simp only [List.Forall]; repeat' constructor))

end Cert.Line
-- ==== Proof.LibLineStep.lean ====
/-
  One step of reading a straight line of host operations: the buffer the `k`-th operation writes, as that
  operation's function of the buffers it reads, whatever the operation's number of operands.
-/
import proofs.«133845_j39152921870850_2_alg».proof.Proof.LibHostLineMore

namespace Cert.Line

open Idealize.ShloMosaic Idealize.ShloMosaic.StableHlo Cert.CubePad.Line

/-- `line_step hW V k`: rewrite what the line leaves in the `k`-th operation's result buffer into that operation's function
    of what the line leaves in its operands (`hW`: the references the line writes, in order; `V`: the starting contents). -/
macro "line_step " hW:term:max V:term:max k:num : tactic =>
  `(tactic| first
    | rw [Cert.Line.binary_at $hW $V $k _ _ _ _ _ _ _ rfl (by decide) (by decide) (by decide)]
    | rw [Cert.CubePad.Line.Writes.unary_at $hW $V $k _ _ _ _ _ rfl (by decide) (by decide)]
    | rw [Cert.Line.ternary_at $hW $V $k _ _ _ _ _ _ _ _ _ rfl (by decide) (by decide) (by decide) (by decide)]
    | rw [Cert.CubePad.Line.Writes.reshape_at $hW $V $k _ _ _ _ _ _ rfl (by decide) (by decide)]
    | rw [Cert.Line.nullary_at $hW $V $k _ _ _ rfl (by decide)])

end Cert.Line
-- ==== Proof.LbpRefOps.lean ====
/-
  The reference program as one straight line of 161 array operations.

  The program pads each of the two images by one mirrored pixel on every side (sixteen operations: four
  unused slices, and four times a slice next to the edge, its reversal along the axis of extent one, and a join),
  then for each image forms the code of every pixel (eight times: the padded image shifted to one neighbour,
  compared with the image, the comparison's bit as a number, times the neighbour's weight, added to the running
  sum that starts at zero), scales it, and finally subtracts the two scaled codes, takes absolute values, adds
  everything up and takes the square root. The padding is a function the program calls twice; here its operations
  stand in the line at the place of each call, over that call's own buffers.

  The line is cut in three stretches as the program is printed. This file lists them, shows the program is the
  line, names the buffer each operation writes, and records that the line stays on the device's own buffers and
  allocates nothing.
-/
import proofs.«133845_j39152921870850_2_alg».proof.Proof.Gen.ReferenceIdeal
import proofs.«133845_j39152921870850_2_alg».proof.Proof.LibLineStep
import Idealize.ShloMosaic.Lib.StableHlo.Run

noncomputable section

namespace Cert.Lbp.Ref

open Cert.ReferenceIdeal Cert.ReferenceIdeal.Facts₀ Cert.ReferenceIdeal.Facts Idealize.ShloMosaic Idealize.ShloMosaic.TcCoe
  Idealize.SL.Sem Idealize.ShloMosaic.StableHlo Cert.CubePad.Line Cert.Line

variable {F : FTy → Type} [FloatOps F]

/-- The first stretch: the first image padded, then its codes up to the last neighbour's contribution. -/
abbrev ops0 : List (HloOp τ sig (Elt F)) :=
  [
    nullary main_c (constantI S_ 32 0#32),
    TRef.unary (TRef.of main_arg0 : TRef sig ⟨S16x3x512x512, .f32⟩) main_call0.v0 (extractStridedSlice S16x3x1x512 ![0, 0, 0, 0] · slices_S16x3x512x512_S16x3x1x512_0_0_0_0),
    TRef.unary (TRef.of main_arg0 : TRef sig ⟨S16x3x512x512, .f32⟩) main_call0.v1 (extractStridedSlice S16x3x1x512 ![0, 0, 1, 0] · slices_S16x3x512x512_S16x3x1x512_0_0_1_0),
    TRef.unary main_call0.v1 main_call0.call0.v0 (Host.reverse [2]),
    TRef.binary main_call0.call0.v0 (TRef.of main_arg0 : TRef sig ⟨S16x3x512x512, .f32⟩) main_call0.v3 (fun a b => concatenate S16x3x513x512 2 [⟨S16x3x1x512, a⟩, ⟨S16x3x512x512, b⟩] concatenates_S16x3x1x512_S16x3x512x512_S16x3x513x512_d2),
    TRef.unary main_call0.v3 main_call0.v4 (extractStridedSlice S16x3x1x512 ![0, 0, 512, 0] · slices_S16x3x513x512_S16x3x1x512_0_0_512_0),
    TRef.unary main_call0.v3 main_call0.v5 (extractStridedSlice S16x3x1x512 ![0, 0, 511, 0] · slices_S16x3x513x512_S16x3x1x512_0_0_511_0),
    TRef.unary main_call0.v5 main_call0.call1.v0 (Host.reverse [2]),
    TRef.binary main_call0.v3 main_call0.call1.v0 main_call0.v7 (fun a b => concatenate S16x3x514x512 2 [⟨S16x3x513x512, a⟩, ⟨S16x3x1x512, b⟩] concatenates_S16x3x513x512_S16x3x1x512_S16x3x514x512_d2),
    TRef.unary main_call0.v7 main_call0.v8 (extractStridedSlice S16x3x514x1 ![0, 0, 0, 0] · slices_S16x3x514x512_S16x3x514x1_0_0_0_0),
    TRef.unary main_call0.v7 main_call0.v9 (extractStridedSlice S16x3x514x1 ![0, 0, 0, 1] · slices_S16x3x514x512_S16x3x514x1_0_0_0_1),
    TRef.unary main_call0.v9 main_call0.call2.v0 (Host.reverse [3]),
    TRef.binary main_call0.call2.v0 main_call0.v7 main_call0.v11 (fun a b => concatenate S16x3x514x513 3 [⟨S16x3x514x1, a⟩, ⟨S16x3x514x512, b⟩] concatenates_S16x3x514x1_S16x3x514x512_S16x3x514x513_d3),
    TRef.unary main_call0.v11 main_call0.v12 (extractStridedSlice S16x3x514x1 ![0, 0, 0, 512] · slices_S16x3x514x513_S16x3x514x1_0_0_0_512),
    TRef.unary main_call0.v11 main_call0.v13 (extractStridedSlice S16x3x514x1 ![0, 0, 0, 511] · slices_S16x3x514x513_S16x3x514x1_0_0_0_511),
    TRef.unary main_call0.v13 main_call0.call3.v0 (Host.reverse [3]),
    TRef.binary main_call0.v11 main_call0.call3.v0 main_call0.v15 (fun a b => concatenate S16x3x514x514 3 [⟨S16x3x514x513, a⟩, ⟨S16x3x514x1, b⟩] concatenates_S16x3x514x513_S16x3x514x1_S16x3x514x514_d3),
    nullary main_cst (constant S_ .f32 0x00000000#32),
    unary main_cst main_v1 (broadcastInDim S16x3x512x512 ![] bcast_S_S16x3x512x512 : (⟨S_, .f32⟩ : BufTy).Contents (Elt F) → (⟨S16x3x512x512, .f32⟩ : BufTy).Contents (Elt F)),
    unary main_v0 main_v2 ((extractStridedSlice S16x3x512x512 ![0, 0, 0, 0] · slices_S16x3x514x514_S16x3x512x512_0_0_0_0) : (⟨S16x3x514x514, .f32⟩ : BufTy).Contents (Elt F) → (⟨S16x3x512x512, .f32⟩ : BufTy).Contents (Elt F)),
    binary main_v2 main_arg0 main_v3 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v3 main_v4 (uitofp .f32 : (⟨S16x3x512x512, .i1⟩ : BufTy).Contents (Elt F) → (⟨S16x3x512x512, .f32⟩ : BufTy).Contents (Elt F)),
    nullary main_cst_0 (constant S_ .f32 0x3F800000#32),
    unary main_cst_0 main_v5 (broadcastInDim S16x3x512x512 ![] bcast_S_S16x3x512x512 : (⟨S_, .f32⟩ : BufTy).Contents (Elt F) → (⟨S16x3x512x512, .f32⟩ : BufTy).Contents (Elt F)),
    binary main_v5 main_v4 main_v6 (mulf : (⟨S16x3x512x512, .f32⟩ : BufTy).Contents (Elt F) → (⟨S16x3x512x512, .f32⟩ : BufTy).Contents (Elt F) → (⟨S16x3x512x512, .f32⟩ : BufTy).Contents (Elt F)),
    binary main_v1 main_v6 main_v7 (addf : (⟨S16x3x512x512, .f32⟩ : BufTy).Contents (Elt F) → (⟨S16x3x512x512, .f32⟩ : BufTy).Contents (Elt F) → (⟨S16x3x512x512, .f32⟩ : BufTy).Contents (Elt F)),
    unary main_v0 main_v8 ((extractStridedSlice S16x3x512x512 ![0, 0, 0, 1] · slices_S16x3x514x514_S16x3x512x512_0_0_0_1) : (⟨S16x3x514x514, .f32⟩ : BufTy).Contents (Elt F) → (⟨S16x3x512x512, .f32⟩ : BufTy).Contents (Elt F)),
    binary main_v8 main_arg0 main_v9 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v9 main_v10 (uitofp .f32 : (⟨S16x3x512x512, .i1⟩ : BufTy).Contents (Elt F) → (⟨S16x3x512x512, .f32⟩ : BufTy).Contents (Elt F)),
    nullary main_cst_1 (constant S_ .f32 0x40000000#32),
    unary main_cst_1 main_v11 (broadcastInDim S16x3x512x512 ![] bcast_S_S16x3x512x512 : (⟨S_, .f32⟩ : BufTy).Contents (Elt F) → (⟨S16x3x512x512, .f32⟩ : BufTy).Contents (Elt F)),
    binary main_v11 main_v10 main_v12 (mulf : (⟨S16x3x512x512, .f32⟩ : BufTy).Contents (Elt F) → (⟨S16x3x512x512, .f32⟩ : BufTy).Contents (Elt F) → (⟨S16x3x512x512, .f32⟩ : BufTy).Contents (Elt F)),
    binary main_v7 main_v12 main_v13 (addf : (⟨S16x3x512x512, .f32⟩ : BufTy).Contents (Elt F) → (⟨S16x3x512x512, .f32⟩ : BufTy).Contents (Elt F) → (⟨S16x3x512x512, .f32⟩ : BufTy).Contents (Elt F)),
    unary main_v0 main_v14 ((extractStridedSlice S16x3x512x512 ![0, 0, 0, 2] · slices_S16x3x514x514_S16x3x512x512_0_0_0_2) : (⟨S16x3x514x514, .f32⟩ : BufTy).Contents (Elt F) → (⟨S16x3x512x512, .f32⟩ : BufTy).Contents (Elt F)),
    binary main_v14 main_arg0 main_v15 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v15 main_v16 (uitofp .f32 : (⟨S16x3x512x512, .i1⟩ : BufTy).Contents (Elt F) → (⟨S16x3x512x512, .f32⟩ : BufTy).Contents (Elt F)),
    nullary main_cst_2 (constant S_ .f32 0x40800000#32),
    unary main_cst_2 main_v17 (broadcastInDim S16x3x512x512 ![] bcast_S_S16x3x512x512 : (⟨S_, .f32⟩ : BufTy).Contents (Elt F) → (⟨S16x3x512x512, .f32⟩ : BufTy).Contents (Elt F)),
    binary main_v17 main_v16 main_v18 (mulf : (⟨S16x3x512x512, .f32⟩ : BufTy).Contents (Elt F) → (⟨S16x3x512x512, .f32⟩ : BufTy).Contents (Elt F) → (⟨S16x3x512x512, .f32⟩ : BufTy).Contents (Elt F)),
    binary main_v13 main_v18 main_v19 (addf : (⟨S16x3x512x512, .f32⟩ : BufTy).Contents (Elt F) → (⟨S16x3x512x512, .f32⟩ : BufTy).Contents (Elt F) → (⟨S16x3x512x512, .f32⟩ : BufTy).Contents (Elt F)),
    unary main_v0 main_v20 ((extractStridedSlice S16x3x512x512 ![0, 0, 1, 2] · slices_S16x3x514x514_S16x3x512x512_0_0_1_2) : (⟨S16x3x514x514, .f32⟩ : BufTy).Contents (Elt F) → (⟨S16x3x512x512, .f32⟩ : BufTy).Contents (Elt F)),
    binary main_v20 main_arg0 main_v21 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v21 main_v22 (uitofp .f32 : (⟨S16x3x512x512, .i1⟩ : BufTy).Contents (Elt F) → (⟨S16x3x512x512, .f32⟩ : BufTy).Contents (Elt F)),
    nullary main_cst_3 (constant S_ .f32 0x41000000#32),
    unary main_cst_3 main_v23 (broadcastInDim S16x3x512x512 ![] bcast_S_S16x3x512x512 : (⟨S_, .f32⟩ : BufTy).Contents (Elt F) → (⟨S16x3x512x512, .f32⟩ : BufTy).Contents (Elt F)),
    binary main_v23 main_v22 main_v24 (mulf : (⟨S16x3x512x512, .f32⟩ : BufTy).Contents (Elt F) → (⟨S16x3x512x512, .f32⟩ : BufTy).Contents (Elt F) → (⟨S16x3x512x512, .f32⟩ : BufTy).Contents (Elt F)),
    binary main_v19 main_v24 main_v25 (addf : (⟨S16x3x512x512, .f32⟩ : BufTy).Contents (Elt F) → (⟨S16x3x512x512, .f32⟩ : BufTy).Contents (Elt F) → (⟨S16x3x512x512, .f32⟩ : BufTy).Contents (Elt F)),
    unary main_v0 main_v26 ((extractStridedSlice S16x3x512x512 ![0, 0, 2, 2] · slices_S16x3x514x514_S16x3x512x512_0_0_2_2) : (⟨S16x3x514x514, .f32⟩ : BufTy).Contents (Elt F) → (⟨S16x3x512x512, .f32⟩ : BufTy).Contents (Elt F)),
    binary main_v26 main_arg0 main_v27 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v27 main_v28 (uitofp .f32 : (⟨S16x3x512x512, .i1⟩ : BufTy).Contents (Elt F) → (⟨S16x3x512x512, .f32⟩ : BufTy).Contents (Elt F)),
    nullary main_cst_4 (constant S_ .f32 0x41800000#32),
    unary main_cst_4 main_v29 (broadcastInDim S16x3x512x512 ![] bcast_S_S16x3x512x512 : (⟨S_, .f32⟩ : BufTy).Contents (Elt F) → (⟨S16x3x512x512, .f32⟩ : BufTy).Contents (Elt F)),
    binary main_v29 main_v28 main_v30 (mulf : (⟨S16x3x512x512, .f32⟩ : BufTy).Contents (Elt F) → (⟨S16x3x512x512, .f32⟩ : BufTy).Contents (Elt F) → (⟨S16x3x512x512, .f32⟩ : BufTy).Contents (Elt F)),
    binary main_v25 main_v30 main_v31 (addf : (⟨S16x3x512x512, .f32⟩ : BufTy).Contents (Elt F) → (⟨S16x3x512x512, .f32⟩ : BufTy).Contents (Elt F) → (⟨S16x3x512x512, .f32⟩ : BufTy).Contents (Elt F)),
    unary main_v0 main_v32 ((extractStridedSlice S16x3x512x512 ![0, 0, 2, 1] · slices_S16x3x514x514_S16x3x512x512_0_0_2_1) : (⟨S16x3x514x514, .f32⟩ : BufTy).Contents (Elt F) → (⟨S16x3x512x512, .f32⟩ : BufTy).Contents (Elt F)),
    binary main_v32 main_arg0 main_v33 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v33 main_v34 (uitofp .f32 : (⟨S16x3x512x512, .i1⟩ : BufTy).Contents (Elt F) → (⟨S16x3x512x512, .f32⟩ : BufTy).Contents (Elt F)),
    nullary main_cst_5 (constant S_ .f32 0x42000000#32),
    unary main_cst_5 main_v35 (broadcastInDim S16x3x512x512 ![] bcast_S_S16x3x512x512 : (⟨S_, .f32⟩ : BufTy).Contents (Elt F) → (⟨S16x3x512x512, .f32⟩ : BufTy).Contents (Elt F)),
    binary main_v35 main_v34 main_v36 (mulf : (⟨S16x3x512x512, .f32⟩ : BufTy).Contents (Elt F) → (⟨S16x3x512x512, .f32⟩ : BufTy).Contents (Elt F) → (⟨S16x3x512x512, .f32⟩ : BufTy).Contents (Elt F)),
    binary main_v31 main_v36 main_v37 (addf : (⟨S16x3x512x512, .f32⟩ : BufTy).Contents (Elt F) → (⟨S16x3x512x512, .f32⟩ : BufTy).Contents (Elt F) → (⟨S16x3x512x512, .f32⟩ : BufTy).Contents (Elt F)),
    unary main_v0 main_v38 ((extractStridedSlice S16x3x512x512 ![0, 0, 2, 0] · slices_S16x3x514x514_S16x3x512x512_0_0_2_0) : (⟨S16x3x514x514, .f32⟩ : BufTy).Contents (Elt F) → (⟨S16x3x512x512, .f32⟩ : BufTy).Contents (Elt F)),
    binary main_v38 main_arg0 main_v39 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v39 main_v40 (uitofp .f32 : (⟨S16x3x512x512, .i1⟩ : BufTy).Contents (Elt F) → (⟨S16x3x512x512, .f32⟩ : BufTy).Contents (Elt F)),
    nullary main_cst_6 (constant S_ .f32 0x42800000#32),
    unary main_cst_6 main_v41 (broadcastInDim S16x3x512x512 ![] bcast_S_S16x3x512x512 : (⟨S_, .f32⟩ : BufTy).Contents (Elt F) → (⟨S16x3x512x512, .f32⟩ : BufTy).Contents (Elt F)),
    binary main_v41 main_v40 main_v42 (mulf : (⟨S16x3x512x512, .f32⟩ : BufTy).Contents (Elt F) → (⟨S16x3x512x512, .f32⟩ : BufTy).Contents (Elt F) → (⟨S16x3x512x512, .f32⟩ : BufTy).Contents (Elt F)),
    binary main_v37 main_v42 main_v43 (addf : (⟨S16x3x512x512, .f32⟩ : BufTy).Contents (Elt F) → (⟨S16x3x512x512, .f32⟩ : BufTy).Contents (Elt F) → (⟨S16x3x512x512, .f32⟩ : BufTy).Contents (Elt F)),
    unary main_v0 main_v44 ((extractStridedSlice S16x3x512x512 ![0, 0, 1, 0] · slices_S16x3x514x514_S16x3x512x512_0_0_1_0) : (⟨S16x3x514x514, .f32⟩ : BufTy).Contents (Elt F) → (⟨S16x3x512x512, .f32⟩ : BufTy).Contents (Elt F)),
    binary main_v44 main_arg0 main_v45 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v45 main_v46 (uitofp .f32 : (⟨S16x3x512x512, .i1⟩ : BufTy).Contents (Elt F) → (⟨S16x3x512x512, .f32⟩ : BufTy).Contents (Elt F)),
    nullary main_cst_7 (constant S_ .f32 0x43000000#32),
    unary main_cst_7 main_v47 (broadcastInDim S16x3x512x512 ![] bcast_S_S16x3x512x512 : (⟨S_, .f32⟩ : BufTy).Contents (Elt F) → (⟨S16x3x512x512, .f32⟩ : BufTy).Contents (Elt F)),
    binary main_v47 main_v46 main_v48 (mulf : (⟨S16x3x512x512, .f32⟩ : BufTy).Contents (Elt F) → (⟨S16x3x512x512, .f32⟩ : BufTy).Contents (Elt F) → (⟨S16x3x512x512, .f32⟩ : BufTy).Contents (Elt F)),
    binary main_v43 main_v48 main_v49 (addf : (⟨S16x3x512x512, .f32⟩ : BufTy).Contents (Elt F) → (⟨S16x3x512x512, .f32⟩ : BufTy).Contents (Elt F) → (⟨S16x3x512x512, .f32⟩ : BufTy).Contents (Elt F)) ]

/-- The second stretch: the first image's codes scaled; the second image padded, and its codes up to the last weight. -/
abbrev ops1 : List (HloOp τ sig (Elt F)) :=
  [
    nullary main_cst_8 (constant S_ .f32 0x3B808081#32),
    unary main_cst_8 main_v50 (broadcastInDim S16x3x512x512 ![] bcast_S_S16x3x512x512 : (⟨S_, .f32⟩ : BufTy).Contents (Elt F) → (⟨S16x3x512x512, .f32⟩ : BufTy).Contents (Elt F)),
    binary main_v49 main_v50 main_v51 (mulf : (⟨S16x3x512x512, .f32⟩ : BufTy).Contents (Elt F) → (⟨S16x3x512x512, .f32⟩ : BufTy).Contents (Elt F) → (⟨S16x3x512x512, .f32⟩ : BufTy).Contents (Elt F)),
    nullary main_c_9 (constantI S_ 32 0#32),
    TRef.unary (TRef.of main_arg1 : TRef sig ⟨S16x3x512x512, .f32⟩) main_call1.v0 (extractStridedSlice S16x3x1x512 ![0, 0, 0, 0] · slices_S16x3x512x512_S16x3x1x512_0_0_0_0),
    TRef.unary (TRef.of main_arg1 : TRef sig ⟨S16x3x512x512, .f32⟩) main_call1.v1 (extractStridedSlice S16x3x1x512 ![0, 0, 1, 0] · slices_S16x3x512x512_S16x3x1x512_0_0_1_0),
    TRef.unary main_call1.v1 main_call1.call0.v0 (Host.reverse [2]),
    TRef.binary main_call1.call0.v0 (TRef.of main_arg1 : TRef sig ⟨S16x3x512x512, .f32⟩) main_call1.v3 (fun a b => concatenate S16x3x513x512 2 [⟨S16x3x1x512, a⟩, ⟨S16x3x512x512, b⟩] concatenates_S16x3x1x512_S16x3x512x512_S16x3x513x512_d2),
    TRef.unary main_call1.v3 main_call1.v4 (extractStridedSlice S16x3x1x512 ![0, 0, 512, 0] · slices_S16x3x513x512_S16x3x1x512_0_0_512_0),
    TRef.unary main_call1.v3 main_call1.v5 (extractStridedSlice S16x3x1x512 ![0, 0, 511, 0] · slices_S16x3x513x512_S16x3x1x512_0_0_511_0),
    TRef.unary main_call1.v5 main_call1.call1.v0 (Host.reverse [2]),
    TRef.binary main_call1.v3 main_call1.call1.v0 main_call1.v7 (fun a b => concatenate S16x3x514x512 2 [⟨S16x3x513x512, a⟩, ⟨S16x3x1x512, b⟩] concatenates_S16x3x513x512_S16x3x1x512_S16x3x514x512_d2),
    TRef.unary main_call1.v7 main_call1.v8 (extractStridedSlice S16x3x514x1 ![0, 0, 0, 0] · slices_S16x3x514x512_S16x3x514x1_0_0_0_0),
    TRef.unary main_call1.v7 main_call1.v9 (extractStridedSlice S16x3x514x1 ![0, 0, 0, 1] · slices_S16x3x514x512_S16x3x514x1_0_0_0_1),
    TRef.unary main_call1.v9 main_call1.call2.v0 (Host.reverse [3]),
    TRef.binary main_call1.call2.v0 main_call1.v7 main_call1.v11 (fun a b => concatenate S16x3x514x513 3 [⟨S16x3x514x1, a⟩, ⟨S16x3x514x512, b⟩] concatenates_S16x3x514x1_S16x3x514x512_S16x3x514x513_d3),
    TRef.unary main_call1.v11 main_call1.v12 (extractStridedSlice S16x3x514x1 ![0, 0, 0, 512] · slices_S16x3x514x513_S16x3x514x1_0_0_0_512),
    TRef.unary main_call1.v11 main_call1.v13 (extractStridedSlice S16x3x514x1 ![0, 0, 0, 511] · slices_S16x3x514x513_S16x3x514x1_0_0_0_511),
    TRef.unary main_call1.v13 main_call1.call3.v0 (Host.reverse [3]),
    TRef.binary main_call1.v11 main_call1.call3.v0 main_call1.v15 (fun a b => concatenate S16x3x514x514 3 [⟨S16x3x514x513, a⟩, ⟨S16x3x514x1, b⟩] concatenates_S16x3x514x513_S16x3x514x1_S16x3x514x514_d3),
    nullary main_cst_10 (constant S_ .f32 0x00000000#32),
    unary main_cst_10 main_v53 (broadcastInDim S16x3x512x512 ![] bcast_S_S16x3x512x512 : (⟨S_, .f32⟩ : BufTy).Contents (Elt F) → (⟨S16x3x512x512, .f32⟩ : BufTy).Contents (Elt F)),
    unary main_v52 main_v54 ((extractStridedSlice S16x3x512x512 ![0, 0, 0, 0] · slices_S16x3x514x514_S16x3x512x512_0_0_0_0) : (⟨S16x3x514x514, .f32⟩ : BufTy).Contents (Elt F) → (⟨S16x3x512x512, .f32⟩ : BufTy).Contents (Elt F)),
    binary main_v54 main_arg1 main_v55 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v55 main_v56 (uitofp .f32 : (⟨S16x3x512x512, .i1⟩ : BufTy).Contents (Elt F) → (⟨S16x3x512x512, .f32⟩ : BufTy).Contents (Elt F)),
    nullary main_cst_11 (constant S_ .f32 0x3F800000#32),
    unary main_cst_11 main_v57 (broadcastInDim S16x3x512x512 ![] bcast_S_S16x3x512x512 : (⟨S_, .f32⟩ : BufTy).Contents (Elt F) → (⟨S16x3x512x512, .f32⟩ : BufTy).Contents (Elt F)),
    binary main_v57 main_v56 main_v58 (mulf : (⟨S16x3x512x512, .f32⟩ : BufTy).Contents (Elt F) → (⟨S16x3x512x512, .f32⟩ : BufTy).Contents (Elt F) → (⟨S16x3x512x512, .f32⟩ : BufTy).Contents (Elt F)),
    binary main_v53 main_v58 main_v59 (addf : (⟨S16x3x512x512, .f32⟩ : BufTy).Contents (Elt F) → (⟨S16x3x512x512, .f32⟩ : BufTy).Contents (Elt F) → (⟨S16x3x512x512, .f32⟩ : BufTy).Contents (Elt F)),
    unary main_v52 main_v60 ((extractStridedSlice S16x3x512x512 ![0, 0, 0, 1] · slices_S16x3x514x514_S16x3x512x512_0_0_0_1) : (⟨S16x3x514x514, .f32⟩ : BufTy).Contents (Elt F) → (⟨S16x3x512x512, .f32⟩ : BufTy).Contents (Elt F)),
    binary main_v60 main_arg1 main_v61 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v61 main_v62 (uitofp .f32 : (⟨S16x3x512x512, .i1⟩ : BufTy).Contents (Elt F) → (⟨S16x3x512x512, .f32⟩ : BufTy).Contents (Elt F)),
    nullary main_cst_12 (constant S_ .f32 0x40000000#32),
    unary main_cst_12 main_v63 (broadcastInDim S16x3x512x512 ![] bcast_S_S16x3x512x512 : (⟨S_, .f32⟩ : BufTy).Contents (Elt F) → (⟨S16x3x512x512, .f32⟩ : BufTy).Contents (Elt F)),
    binary main_v63 main_v62 main_v64 (mulf : (⟨S16x3x512x512, .f32⟩ : BufTy).Contents (Elt F) → (⟨S16x3x512x512, .f32⟩ : BufTy).Contents (Elt F) → (⟨S16x3x512x512, .f32⟩ : BufTy).Contents (Elt F)),
    binary main_v59 main_v64 main_v65 (addf : (⟨S16x3x512x512, .f32⟩ : BufTy).Contents (Elt F) → (⟨S16x3x512x512, .f32⟩ : BufTy).Contents (Elt F) → (⟨S16x3x512x512, .f32⟩ : BufTy).Contents (Elt F)),
    unary main_v52 main_v66 ((extractStridedSlice S16x3x512x512 ![0, 0, 0, 2] · slices_S16x3x514x514_S16x3x512x512_0_0_0_2) : (⟨S16x3x514x514, .f32⟩ : BufTy).Contents (Elt F) → (⟨S16x3x512x512, .f32⟩ : BufTy).Contents (Elt F)),
    binary main_v66 main_arg1 main_v67 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v67 main_v68 (uitofp .f32 : (⟨S16x3x512x512, .i1⟩ : BufTy).Contents (Elt F) → (⟨S16x3x512x512, .f32⟩ : BufTy).Contents (Elt F)),
    nullary main_cst_13 (constant S_ .f32 0x40800000#32),
    unary main_cst_13 main_v69 (broadcastInDim S16x3x512x512 ![] bcast_S_S16x3x512x512 : (⟨S_, .f32⟩ : BufTy).Contents (Elt F) → (⟨S16x3x512x512, .f32⟩ : BufTy).Contents (Elt F)),
    binary main_v69 main_v68 main_v70 (mulf : (⟨S16x3x512x512, .f32⟩ : BufTy).Contents (Elt F) → (⟨S16x3x512x512, .f32⟩ : BufTy).Contents (Elt F) → (⟨S16x3x512x512, .f32⟩ : BufTy).Contents (Elt F)),
    binary main_v65 main_v70 main_v71 (addf : (⟨S16x3x512x512, .f32⟩ : BufTy).Contents (Elt F) → (⟨S16x3x512x512, .f32⟩ : BufTy).Contents (Elt F) → (⟨S16x3x512x512, .f32⟩ : BufTy).Contents (Elt F)),
    unary main_v52 main_v72 ((extractStridedSlice S16x3x512x512 ![0, 0, 1, 2] · slices_S16x3x514x514_S16x3x512x512_0_0_1_2) : (⟨S16x3x514x514, .f32⟩ : BufTy).Contents (Elt F) → (⟨S16x3x512x512, .f32⟩ : BufTy).Contents (Elt F)),
    binary main_v72 main_arg1 main_v73 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v73 main_v74 (uitofp .f32 : (⟨S16x3x512x512, .i1⟩ : BufTy).Contents (Elt F) → (⟨S16x3x512x512, .f32⟩ : BufTy).Contents (Elt F)),
    nullary main_cst_14 (constant S_ .f32 0x41000000#32),
    unary main_cst_14 main_v75 (broadcastInDim S16x3x512x512 ![] bcast_S_S16x3x512x512 : (⟨S_, .f32⟩ : BufTy).Contents (Elt F) → (⟨S16x3x512x512, .f32⟩ : BufTy).Contents (Elt F)),
    binary main_v75 main_v74 main_v76 (mulf : (⟨S16x3x512x512, .f32⟩ : BufTy).Contents (Elt F) → (⟨S16x3x512x512, .f32⟩ : BufTy).Contents (Elt F) → (⟨S16x3x512x512, .f32⟩ : BufTy).Contents (Elt F)),
    binary main_v71 main_v76 main_v77 (addf : (⟨S16x3x512x512, .f32⟩ : BufTy).Contents (Elt F) → (⟨S16x3x512x512, .f32⟩ : BufTy).Contents (Elt F) → (⟨S16x3x512x512, .f32⟩ : BufTy).Contents (Elt F)),
    unary main_v52 main_v78 ((extractStridedSlice S16x3x512x512 ![0, 0, 2, 2] · slices_S16x3x514x514_S16x3x512x512_0_0_2_2) : (⟨S16x3x514x514, .f32⟩ : BufTy).Contents (Elt F) → (⟨S16x3x512x512, .f32⟩ : BufTy).Contents (Elt F)),
    binary main_v78 main_arg1 main_v79 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v79 main_v80 (uitofp .f32 : (⟨S16x3x512x512, .i1⟩ : BufTy).Contents (Elt F) → (⟨S16x3x512x512, .f32⟩ : BufTy).Contents (Elt F)),
    nullary main_cst_15 (constant S_ .f32 0x41800000#32),
    unary main_cst_15 main_v81 (broadcastInDim S16x3x512x512 ![] bcast_S_S16x3x512x512 : (⟨S_, .f32⟩ : BufTy).Contents (Elt F) → (⟨S16x3x512x512, .f32⟩ : BufTy).Contents (Elt F)),
    binary main_v81 main_v80 main_v82 (mulf : (⟨S16x3x512x512, .f32⟩ : BufTy).Contents (Elt F) → (⟨S16x3x512x512, .f32⟩ : BufTy).Contents (Elt F) → (⟨S16x3x512x512, .f32⟩ : BufTy).Contents (Elt F)),
    binary main_v77 main_v82 main_v83 (addf : (⟨S16x3x512x512, .f32⟩ : BufTy).Contents (Elt F) → (⟨S16x3x512x512, .f32⟩ : BufTy).Contents (Elt F) → (⟨S16x3x512x512, .f32⟩ : BufTy).Contents (Elt F)),
    unary main_v52 main_v84 ((extractStridedSlice S16x3x512x512 ![0, 0, 2, 1] · slices_S16x3x514x514_S16x3x512x512_0_0_2_1) : (⟨S16x3x514x514, .f32⟩ : BufTy).Contents (Elt F) → (⟨S16x3x512x512, .f32⟩ : BufTy).Contents (Elt F)),
    binary main_v84 main_arg1 main_v85 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v85 main_v86 (uitofp .f32 : (⟨S16x3x512x512, .i1⟩ : BufTy).Contents (Elt F) → (⟨S16x3x512x512, .f32⟩ : BufTy).Contents (Elt F)),
    nullary main_cst_16 (constant S_ .f32 0x42000000#32),
    unary main_cst_16 main_v87 (broadcastInDim S16x3x512x512 ![] bcast_S_S16x3x512x512 : (⟨S_, .f32⟩ : BufTy).Contents (Elt F) → (⟨S16x3x512x512, .f32⟩ : BufTy).Contents (Elt F)),
    binary main_v87 main_v86 main_v88 (mulf : (⟨S16x3x512x512, .f32⟩ : BufTy).Contents (Elt F) → (⟨S16x3x512x512, .f32⟩ : BufTy).Contents (Elt F) → (⟨S16x3x512x512, .f32⟩ : BufTy).Contents (Elt F)),
    binary main_v83 main_v88 main_v89 (addf : (⟨S16x3x512x512, .f32⟩ : BufTy).Contents (Elt F) → (⟨S16x3x512x512, .f32⟩ : BufTy).Contents (Elt F) → (⟨S16x3x512x512, .f32⟩ : BufTy).Contents (Elt F)),
    unary main_v52 main_v90 ((extractStridedSlice S16x3x512x512 ![0, 0, 2, 0] · slices_S16x3x514x514_S16x3x512x512_0_0_2_0) : (⟨S16x3x514x514, .f32⟩ : BufTy).Contents (Elt F) → (⟨S16x3x512x512, .f32⟩ : BufTy).Contents (Elt F)),
    binary main_v90 main_arg1 main_v91 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v91 main_v92 (uitofp .f32 : (⟨S16x3x512x512, .i1⟩ : BufTy).Contents (Elt F) → (⟨S16x3x512x512, .f32⟩ : BufTy).Contents (Elt F)),
    nullary main_cst_17 (constant S_ .f32 0x42800000#32),
    unary main_cst_17 main_v93 (broadcastInDim S16x3x512x512 ![] bcast_S_S16x3x512x512 : (⟨S_, .f32⟩ : BufTy).Contents (Elt F) → (⟨S16x3x512x512, .f32⟩ : BufTy).Contents (Elt F)),
    binary main_v93 main_v92 main_v94 (mulf : (⟨S16x3x512x512, .f32⟩ : BufTy).Contents (Elt F) → (⟨S16x3x512x512, .f32⟩ : BufTy).Contents (Elt F) → (⟨S16x3x512x512, .f32⟩ : BufTy).Contents (Elt F)),
    binary main_v89 main_v94 main_v95 (addf : (⟨S16x3x512x512, .f32⟩ : BufTy).Contents (Elt F) → (⟨S16x3x512x512, .f32⟩ : BufTy).Contents (Elt F) → (⟨S16x3x512x512, .f32⟩ : BufTy).Contents (Elt F)),
    unary main_v52 main_v96 ((extractStridedSlice S16x3x512x512 ![0, 0, 1, 0] · slices_S16x3x514x514_S16x3x512x512_0_0_1_0) : (⟨S16x3x514x514, .f32⟩ : BufTy).Contents (Elt F) → (⟨S16x3x512x512, .f32⟩ : BufTy).Contents (Elt F)),
    binary main_v96 main_arg1 main_v97 (cmpf .oge : (⟨S16x3x512x512, .f32⟩ : BufTy).Contents (Elt F) → (⟨S16x3x512x512, .f32⟩ : BufTy).Contents (Elt F) → (⟨S16x3x512x512, .i1⟩ : BufTy).Contents (Elt F)),
    unary main_v97 main_v98 (uitofp .f32 : (⟨S16x3x512x512, .i1⟩ : BufTy).Contents (Elt F) → (⟨S16x3x512x512, .f32⟩ : BufTy).Contents (Elt F)),
    nullary main_cst_18 (constant S_ .f32 0x43000000#32) ]

/-- The third stretch: the second image's last contribution and scaling, the difference, absolute values, the total, the root. -/
abbrev ops2 : List (HloOp τ sig (Elt F)) :=
  [
    unary main_cst_18 main_v99 (broadcastInDim S16x3x512x512 ![] bcast_S_S16x3x512x512 : (⟨S_, .f32⟩ : BufTy).Contents (Elt F) → (⟨S16x3x512x512, .f32⟩ : BufTy).Contents (Elt F)),
    binary main_v99 main_v98 main_v100 (mulf : (⟨S16x3x512x512, .f32⟩ : BufTy).Contents (Elt F) → (⟨S16x3x512x512, .f32⟩ : BufTy).Contents (Elt F) → (⟨S16x3x512x512, .f32⟩ : BufTy).Contents (Elt F)),
    binary main_v95 main_v100 main_v101 (addf : (⟨S16x3x512x512, .f32⟩ : BufTy).Contents (Elt F) → (⟨S16x3x512x512, .f32⟩ : BufTy).Contents (Elt F) → (⟨S16x3x512x512, .f32⟩ : BufTy).Contents (Elt F)),
    nullary main_cst_19 (constant S_ .f32 0x3B808081#32),
    unary main_cst_19 main_v102 (broadcastInDim S16x3x512x512 ![] bcast_S_S16x3x512x512 : (⟨S_, .f32⟩ : BufTy).Contents (Elt F) → (⟨S16x3x512x512, .f32⟩ : BufTy).Contents (Elt F)),
    binary main_v101 main_v102 main_v103 (mulf : (⟨S16x3x512x512, .f32⟩ : BufTy).Contents (Elt F) → (⟨S16x3x512x512, .f32⟩ : BufTy).Contents (Elt F) → (⟨S16x3x512x512, .f32⟩ : BufTy).Contents (Elt F)),
    binary main_v51 main_v103 main_v104 (subf : (⟨S16x3x512x512, .f32⟩ : BufTy).Contents (Elt F) → (⟨S16x3x512x512, .f32⟩ : BufTy).Contents (Elt F) → (⟨S16x3x512x512, .f32⟩ : BufTy).Contents (Elt F)),
    unary main_v104 main_v105 (Host.absf : (⟨S16x3x512x512, .f32⟩ : BufTy).Contents (Elt F) → (⟨S16x3x512x512, .f32⟩ : BufTy).Contents (Elt F)),
    nullary main_cst_20 (constant S_ .f32 0x00000000#32),
    binary main_v105 main_cst_20 main_v106 ((fun x v => Host.reduceAdd x v reducesTo_S16x3x512x512_S_d0_1_2_3 h_S_) : (⟨S16x3x512x512, .f32⟩ : BufTy).Contents (Elt F) → (⟨S_, .f32⟩ : BufTy).Contents (Elt F) → (⟨S_, .f32⟩ : BufTy).Contents (Elt F)),
    unary main_v106 main_v107 (Host.sqrt : (⟨S_, .f32⟩ : BufTy).Contents (Elt F) → (⟨S_, .f32⟩ : BufTy).Contents (Elt F)) ]

/-- The whole line. -/
abbrev ops : List (HloOp τ sig (Elt F)) := ops0 ++ (ops1 ++ ops2)

/-- The buffers the three stretches write, one per operation, in order. -/
abbrev W0 : List (Ref sig .tc) :=
  [
    main_c, main_call0_v0, main_call0_v1, main_call0_v2, main_call0_v3, main_call0_v4, main_call0_v5, main_call0_v6,
    main_call0_v7, main_call0_v8, main_call0_v9, main_call0_v10, main_call0_v11, main_call0_v12, main_call0_v13, main_call0_v14,
    main_v0, main_cst, main_v1, main_v2, main_v3, main_v4, main_cst_0, main_v5,
    main_v6, main_v7, main_v8, main_v9, main_v10, main_cst_1, main_v11, main_v12,
    main_v13, main_v14, main_v15, main_v16, main_cst_2, main_v17, main_v18, main_v19,
    main_v20, main_v21, main_v22, main_cst_3, main_v23, main_v24, main_v25, main_v26,
    main_v27, main_v28, main_cst_4, main_v29, main_v30, main_v31, main_v32, main_v33,
    main_v34, main_cst_5, main_v35, main_v36, main_v37, main_v38, main_v39, main_v40,
    main_cst_6, main_v41, main_v42, main_v43, main_v44, main_v45, main_v46, main_cst_7,
    main_v47, main_v48, main_v49 ]
abbrev W1 : List (Ref sig .tc) :=
  [
    main_cst_8, main_v50, main_v51, main_c_9, main_call1_v0, main_call1_v1, main_call1_v2, main_call1_v3,
    main_call1_v4, main_call1_v5, main_call1_v6, main_call1_v7, main_call1_v8, main_call1_v9, main_call1_v10, main_call1_v11,
    main_call1_v12, main_call1_v13, main_call1_v14, main_v52, main_cst_10, main_v53, main_v54, main_v55,
    main_v56, main_cst_11, main_v57, main_v58, main_v59, main_v60, main_v61, main_v62,
    main_cst_12, main_v63, main_v64, main_v65, main_v66, main_v67, main_v68, main_cst_13,
    main_v69, main_v70, main_v71, main_v72, main_v73, main_v74, main_cst_14, main_v75,
    main_v76, main_v77, main_v78, main_v79, main_v80, main_cst_15, main_v81, main_v82,
    main_v83, main_v84, main_v85, main_v86, main_cst_16, main_v87, main_v88, main_v89,
    main_v90, main_v91, main_v92, main_cst_17, main_v93, main_v94, main_v95, main_v96,
    main_v97, main_v98, main_cst_18 ]
abbrev W2 : List (Ref sig .tc) :=
  [
    main_v99, main_v100, main_v101, main_cst_19, main_v102, main_v103, main_v104, main_v105,
    main_cst_20, main_v106, main_v107 ]
abbrev W : List (Ref sig .tc) := W0 ++ (W1 ++ W2)

set_option maxRecDepth 8192 in
theorem part0_eq (c : Dev nD) : main_part0 (F := F) c = seq ops0 := by
  simp only [main_part0, fn_pad.body, fn_flip.body, fn_flip_0.body, seq, bind_assoc, pure_bind]
  rfl

set_option maxRecDepth 8192 in
theorem part1_eq (c : Dev nD) : main_part1 (F := F) c = seq ops1 := by
  simp only [main_part1, fn_pad.body, fn_flip.body, fn_flip_0.body, seq, bind_assoc, pure_bind]
  rfl

set_option maxRecDepth 8192 in
theorem part2_eq (c : Dev nD) : main_part2 (F := F) c = seq ops2 := by
  simp only [main_part2, seq, bind_assoc, pure_bind]

/-- The program is the line. -/
theorem main_eq (c : Dev nD) : main (F := F) c = seq ops := by
  rw [seq_append, seq_append, ← part0_eq c, ← part1_eq c, ← part2_eq c]
  rfl

theorem writes0 : Writes (ops0 (F := F)) W0 := by line_writes
theorem writes1 : Writes (ops1 (F := F)) W1 := by line_writes
theorem writes2 : Writes (ops2 (F := F)) W2 := by line_writes
/-- Every operation of the line writes one buffer of its own. -/
theorem writes : Writes (ops (F := F)) W := writes_append writes0 (writes_append writes1 writes2)

theorem scopedRefs_eq : (Finset.univ.filter fun b : Ref sig .tc => b.isScoped) = ∅ := by decide
theorem scopedSems_eq : (Finset.univ.filter fun sm : SemLoc sig => sm.isScoped .tc) = ∅ := by decide

theorem sub0 : (ops0 : List (HloOp τ sig (Elt F))).Forall fun op => op.bufs ⊆ tcRefs τ sig := by line_sub
theorem sub1 : (ops1 : List (HloOp τ sig (Elt F))).Forall fun op => op.bufs ⊆ tcRefs τ sig := by line_sub
theorem sub2 : (ops2 : List (HloOp τ sig (Elt F))).Forall fun op => op.bufs ⊆ tcRefs τ sig := by line_sub
/-- The line touches the device's own buffers only. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp sub0 op h
    rcases List.mem_append.mp h with h | h
    · exact List.forall_iff_forall_mem.mp sub1 op h
    · exact List.forall_iff_forall_mem.mp sub2 op h

theorem fresh0 : (ops0 : List (HloOp τ sig (Elt F))).Forall fun op => op.fresh = ∅ := by line_fresh
theorem fresh1 : (ops1 : List (HloOp τ sig (Elt F))).Forall fun op => op.fresh = ∅ := by line_fresh
theorem fresh2 : (ops2 : List (HloOp τ sig (Elt F))).Forall fun op => op.fresh = ∅ := by line_fresh
/-- The line allocates nothing: every operation determines what it writes. -/
theorem ops_fresh : ∀ op ∈ (ops : List (HloOp τ sig (Elt F))), op.fresh = ∅ := fun op h => by
  rcases List.mem_append.mp h with h | h
  · exact List.forall_iff_forall_mem.mp fresh0 op h
  rcases List.mem_append.mp h with h | h
  · exact List.forall_iff_forall_mem.mp fresh1 op h
  · exact List.forall_iff_forall_mem.mp fresh2 op h

end Cert.Lbp.Ref

end
-- ==== Proof.LbpRefValue.lean ====
/-
  What the reference's line leaves in its buffers, read from the last operation backwards.

  Each image's padded copy is the chain of slices, reversals and joins named `pad`. Each image's scaled codes are
  one function of the padded copy and the image: the sum, from zero, of the eight neighbours' contributions (the
  padded copy shifted to the neighbour, compared with the image, the bit as a number, times the weight), times the
  scale. Read at a pixel this is the pixel's code times the scale. The last five operations subtract the two, take
  absolute values, add all of them to zero, and take the square root: the total in the form that scales every code
  before subtracting.
-/
import proofs.«133845_j39152921870850_2_alg».proof.Proof.LbpRefOps
import proofs.«133845_j39152921870850_2_alg».proof.Proof.LbpSpec
import proofs.«133845_j39152921870850_2_alg».proof.Proof.LbpPad
import Idealize.ShloMosaic.Lib.IdealHost
import Idealize.ShloMosaic.Lib.Pipeline.Value

noncomputable section

namespace Cert.Lbp.Ref

open Cert.ReferenceIdeal Cert.ReferenceIdeal.Facts₀ Cert.ReferenceIdeal.Facts Idealize.ShloMosaic Idealize.ShloMosaic.TcCoe
  Idealize.ShloMosaic.StableHlo Idealize.ShloMosaic.ValueIdx Cert.CubePad.Line Cert.Line

/-- One step of reading the line backwards: the buffer the `k`-th operation writes, as that operation's function of the
    buffers it reads (an operation of no, one or two operands). -/
local macro "stepN " V:ident k:num : tactic =>
  `(tactic| rw [Cert.Line.nullary_at writes $V $k _ _ _ rfl (by decide)])
local macro "stepU " V:ident k:num : tactic =>
  `(tactic| rw [Cert.CubePad.Line.Writes.unary_at writes $V $k _ _ _ _ _ rfl (by decide) (by decide)])
local macro "stepB " V:ident k:num : tactic =>
  `(tactic| rw [Cert.Line.binary_at writes $V $k _ _ _ _ _ _ _ rfl (by decide) (by decide) (by decide)])

section AnyValues

variable {F : FTy → Type} [FloatOps F]

/-- One neighbour's contribution to every pixel's code: the padded image shifted to the neighbour, compared with the
    image, the comparison's bit as a number, times the neighbour's weight. -/
def term (P : FVec F S16x3x514x514 .f32) (x : FVec F S16x3x512x512 .f32) (off : Fin S16x3x514x514.rank → ℕ)
    (h : S16x3x514x514.Slices off S16x3x512x512) (word : BitVec 32) : FVec F S16x3x512x512 .f32 :=
  mulf (broadcastInDim S16x3x512x512 ![] bcast_S_S16x3x512x512 (constant S_ .f32 word))
    (uitofp .f32 (cmpf .oge (extractStridedSlice S16x3x512x512 off P h) x))

/-- Every pixel's scaled code: the eight contributions added from the first neighbour on, starting from zero, then the
    scale. -/
def codeImg (P : FVec F S16x3x514x514 .f32) (x : FVec F S16x3x512x512 .f32) : FVec F S16x3x512x512 .f32 :=
  mulf
    (addf (addf (addf (addf (addf (addf (addf (addf
      (broadcastInDim S16x3x512x512 ![] bcast_S_S16x3x512x512 (constant S_ .f32 0x00000000#32))
      (term P x ![0, 0, 0, 0] slices_S16x3x514x514_S16x3x512x512_0_0_0_0 0x3F800000#32))
      (term P x ![0, 0, 0, 1] slices_S16x3x514x514_S16x3x512x512_0_0_0_1 0x40000000#32))
      (term P x ![0, 0, 0, 2] slices_S16x3x514x514_S16x3x512x512_0_0_0_2 0x40800000#32))
      (term P x ![0, 0, 1, 2] slices_S16x3x514x514_S16x3x512x512_0_0_1_2 0x41000000#32))
      (term P x ![0, 0, 2, 2] slices_S16x3x514x514_S16x3x512x512_0_0_2_2 0x41800000#32))
      (term P x ![0, 0, 2, 1] slices_S16x3x514x514_S16x3x512x512_0_0_2_1 0x42000000#32))
      (term P x ![0, 0, 2, 0] slices_S16x3x514x514_S16x3x512x512_0_0_2_0 0x42800000#32))
      (term P x ![0, 0, 1, 0] slices_S16x3x514x514_S16x3x512x512_0_0_1_0 0x43000000#32))
    (broadcastInDim S16x3x512x512 ![] bcast_S_S16x3x512x512 (constant S_ .f32 0x3B808081#32))

variable (V : Valuation τ sig (Elt F))

/-- The first image's padded copy. -/
theorem pad0 : after ops V (Proc.devRef .tc main_v0) = Cert.Lbp.pad (V (Proc.devRef .tc main_arg0)) := by
  stepB V 16; stepU V 15; stepU V 14; stepB V 12; stepU V 11; stepU V 10
  stepB V 8; stepU V 7; stepU V 6; stepB V 4; stepU V 3; stepU V 2
  rw [writes.arg V (by decide : main_arg0 ∉ W)]
  simp only [TRef.ofBuf, TRef.toBuf, cast_eq]
  rfl

/-- The second image's padded copy. -/
theorem pad1 : after ops V (Proc.devRef .tc main_v52) = Cert.Lbp.pad (V (Proc.devRef .tc main_arg1)) := by
  stepB V 94; stepU V 93; stepU V 92; stepB V 90; stepU V 89; stepU V 88
  stepB V 86; stepU V 85; stepU V 84; stepB V 82; stepU V 81; stepU V 80
  rw [writes.arg V (by decide : main_arg1 ∉ W)]
  simp only [TRef.ofBuf, TRef.toBuf, cast_eq]
  rfl

/-- The first image's scaled codes. -/
theorem code0 : after ops V (Proc.devRef .tc main_v51)
    = codeImg (Cert.Lbp.pad (V (Proc.devRef .tc main_arg0))) (V (Proc.devRef .tc main_arg0)) := by
  stepB V 77; stepU V 76; stepN V 75; stepB V 74; stepB V 73; stepU V 72; stepN V 71
  stepU V 70; stepB V 69; stepU V 68; stepB V 67; stepB V 66; stepU V 65; stepN V 64
  stepU V 63; stepB V 62; stepU V 61; stepB V 60; stepB V 59; stepU V 58; stepN V 57
  stepU V 56; stepB V 55; stepU V 54; stepB V 53; stepB V 52; stepU V 51; stepN V 50
  stepU V 49; stepB V 48; stepU V 47; stepB V 46; stepB V 45; stepU V 44; stepN V 43
  stepU V 42; stepB V 41; stepU V 40; stepB V 39; stepB V 38; stepU V 37; stepN V 36
  stepU V 35; stepB V 34; stepU V 33; stepB V 32; stepB V 31; stepU V 30; stepN V 29
  stepU V 28; stepB V 27; stepU V 26; stepB V 25; stepB V 24; stepU V 23; stepN V 22
  stepU V 21; stepB V 20; stepU V 19; stepU V 18; stepN V 17
  rw [pad0 V, writes.arg V (by decide : main_arg0 ∉ W)]
  rfl

/-- The second image's scaled codes. -/
theorem code1 : after ops V (Proc.devRef .tc main_v103)
    = codeImg (Cert.Lbp.pad (V (Proc.devRef .tc main_arg1))) (V (Proc.devRef .tc main_arg1)) := by
  stepB V 155; stepU V 154; stepN V 153; stepB V 152; stepB V 151; stepU V 150; stepN V 149
  stepU V 148; stepB V 147; stepU V 146; stepB V 145; stepB V 144; stepU V 143; stepN V 142
  stepU V 141; stepB V 140; stepU V 139; stepB V 138; stepB V 137; stepU V 136; stepN V 135
  stepU V 134; stepB V 133; stepU V 132; stepB V 131; stepB V 130; stepU V 129; stepN V 128
  stepU V 127; stepB V 126; stepU V 125; stepB V 124; stepB V 123; stepU V 122; stepN V 121
  stepU V 120; stepB V 119; stepU V 118; stepB V 117; stepB V 116; stepU V 115; stepN V 114
  stepU V 113; stepB V 112; stepU V 111; stepB V 110; stepB V 109; stepU V 108; stepN V 107
  stepU V 106; stepB V 105; stepU V 104; stepB V 103; stepB V 102; stepU V 101; stepN V 100
  stepU V 99; stepB V 98; stepU V 97; stepU V 96; stepN V 95
  rw [pad1 V, writes.arg V (by decide : main_arg1 ∉ W)]
  rfl

end AnyValues

section AtIdeal

/-- The padded image's index of a pixel's neighbour: the pixel's own coordinates, the row moved by `a` and the column by `b`,
    is where the slice at offset `(a, b)` reads. -/
theorem shift_idx (p : S16x3x512x512.Idx) (a b : ℕ) (ha : (p 2).val + a < 514) (hb : (p 3).val + b < 514)
    (h : S16x3x514x514.Slices ![0, 0, a, b] S16x3x512x512) :
    ∀ q : Fin S16x3x514x514.rank,
      ((ix4 (p 0) (p 1) (⟨(p 2).val + a, ha⟩ : Fin 514) (⟨(p 3).val + b, hb⟩ : Fin 514) : S16x3x514x514.Idx) q).val
        = (![0, 0, a, b] : Fin 4 → ℕ) q + (p (q.cast h.1.symm)).val := by
  intro q
  match q with
  | ⟨0, _⟩ => show (p 0).val = 0 + (p 0).val; omega
  | ⟨1, _⟩ => show (p 1).val = 0 + (p 1).val; omega
  | ⟨2, _⟩ => show (p 2).val + a = a + (p 2).val; omega
  | ⟨3, _⟩ => show (p 3).val + b = b + (p 3).val; omega

/-- One neighbour's contribution at a pixel: the weight times the comparison's bit. -/
theorem term_apply (P : FVec Ideal S16x3x514x514 .f32) (x : FVec Ideal S16x3x512x512 .f32) (off : Fin S16x3x514x514.rank → ℕ)
    (h : S16x3x514x514.Slices off S16x3x512x512) (word : BitVec 32) (p : S16x3x512x512.Idx) (k : S16x3x514x514.Idx)
    (hk : ∀ a : Fin S16x3x514x514.rank, (k a).val = off a + (p (a.cast h.1.symm)).val) :
    term P x off h word p = Ideal.ofBits .f32 word * bit (P k) (x p) := by
  show broadcastInDim S16x3x512x512 ![] bcast_S_S16x3x512x512 (constant (F := Ideal) S_ .f32 word) p
      * (((FloatOps.cmpf (F := Ideal) .oge (extractStridedSlice S16x3x512x512 off P h p) (x p)).toNat : ℝ) : EReal) = _
  rw [broadcastInDim_scalar_apply, extractStridedSlice_apply off P h p k hk]
  rfl

/-- Every pixel's scaled code, read at a pixel: the pixel's code from its eight neighbours in the padded image, times the scale. -/
theorem codeImg_apply (P : FVec Ideal S16x3x514x514 .f32) (x : FVec Ideal S16x3x512x512 .f32) (p : S16x3x512x512.Idx) :
    codeImg P x p = code (nbs4 P (p 0) (p 1) (p 2) (p 3)) (x p) * scale := by
  have h2 : (p 2).val < 512 := (p 2).isLt
  have h3 : (p 3).val < 512 := (p 3).isLt
  have e0 : term P x ![0, 0, 0, 0] slices_S16x3x514x514_S16x3x512x512_0_0_0_0 0x3F800000#32 p
      = w 0 * bit (nbs4 P (p 0) (p 1) (p 2) (p 3) 0) (x p) :=
    term_apply P x _ slices_S16x3x514x514_S16x3x512x512_0_0_0_0 _ p _ (shift_idx p 0 0 (by omega) (by omega) slices_S16x3x514x514_S16x3x512x512_0_0_0_0)
  have e1 : term P x ![0, 0, 0, 1] slices_S16x3x514x514_S16x3x512x512_0_0_0_1 0x40000000#32 p
      = w 1 * bit (nbs4 P (p 0) (p 1) (p 2) (p 3) 1) (x p) :=
    term_apply P x _ slices_S16x3x514x514_S16x3x512x512_0_0_0_1 _ p _ (shift_idx p 0 1 (by omega) (by omega) slices_S16x3x514x514_S16x3x512x512_0_0_0_1)
  have e2 : term P x ![0, 0, 0, 2] slices_S16x3x514x514_S16x3x512x512_0_0_0_2 0x40800000#32 p
      = w 2 * bit (nbs4 P (p 0) (p 1) (p 2) (p 3) 2) (x p) :=
    term_apply P x _ slices_S16x3x514x514_S16x3x512x512_0_0_0_2 _ p _ (shift_idx p 0 2 (by omega) (by omega) slices_S16x3x514x514_S16x3x512x512_0_0_0_2)
  have e3 : term P x ![0, 0, 1, 2] slices_S16x3x514x514_S16x3x512x512_0_0_1_2 0x41000000#32 p
      = w 3 * bit (nbs4 P (p 0) (p 1) (p 2) (p 3) 3) (x p) :=
    term_apply P x _ slices_S16x3x514x514_S16x3x512x512_0_0_1_2 _ p _ (shift_idx p 1 2 (by omega) (by omega) slices_S16x3x514x514_S16x3x512x512_0_0_1_2)
  have e4 : term P x ![0, 0, 2, 2] slices_S16x3x514x514_S16x3x512x512_0_0_2_2 0x41800000#32 p
      = w 4 * bit (nbs4 P (p 0) (p 1) (p 2) (p 3) 4) (x p) :=
    term_apply P x _ slices_S16x3x514x514_S16x3x512x512_0_0_2_2 _ p _ (shift_idx p 2 2 (by omega) (by omega) slices_S16x3x514x514_S16x3x512x512_0_0_2_2)
  have e5 : term P x ![0, 0, 2, 1] slices_S16x3x514x514_S16x3x512x512_0_0_2_1 0x42000000#32 p
      = w 5 * bit (nbs4 P (p 0) (p 1) (p 2) (p 3) 5) (x p) :=
    term_apply P x _ slices_S16x3x514x514_S16x3x512x512_0_0_2_1 _ p _ (shift_idx p 2 1 (by omega) (by omega) slices_S16x3x514x514_S16x3x512x512_0_0_2_1)
  have e6 : term P x ![0, 0, 2, 0] slices_S16x3x514x514_S16x3x512x512_0_0_2_0 0x42800000#32 p
      = w 6 * bit (nbs4 P (p 0) (p 1) (p 2) (p 3) 6) (x p) :=
    term_apply P x _ slices_S16x3x514x514_S16x3x512x512_0_0_2_0 _ p _ (shift_idx p 2 0 (by omega) (by omega) slices_S16x3x514x514_S16x3x512x512_0_0_2_0)
  have e7 : term P x ![0, 0, 1, 0] slices_S16x3x514x514_S16x3x512x512_0_0_1_0 0x43000000#32 p
      = w 7 * bit (nbs4 P (p 0) (p 1) (p 2) (p 3) 7) (x p) :=
    term_apply P x _ slices_S16x3x514x514_S16x3x512x512_0_0_1_0 _ p _ (shift_idx p 1 0 (by omega) (by omega) slices_S16x3x514x514_S16x3x512x512_0_0_1_0)
  have ez : broadcastInDim S16x3x512x512 ![] bcast_S_S16x3x512x512 (constant (F := Ideal) S_ .f32 0x00000000#32) p
      = Ideal.ofBits .f32 0x00000000#32 := by rw [broadcastInDim_scalar_apply]; rfl
  have es : broadcastInDim S16x3x512x512 ![] bcast_S_S16x3x512x512 (constant (F := Ideal) S_ .f32 0x3B808081#32) p
      = scale := by rw [broadcastInDim_scalar_apply]; rfl
  unfold codeImg
  simp only [mulf_apply, addf_apply, e0, e1, e2, e3, e4, e5, e6, e7, ez, es]
  rfl

/-- The difference of the two images' scaled codes in absolute value, read at a pixel. -/
theorem absdiff_apply (P0 P1 : FVec Ideal S16x3x514x514 .f32) (x0 x1 : FVec Ideal S16x3x512x512 .f32) (p : S16x3x512x512.Idx) :
    Host.absf (subf (codeImg P0 x0) (codeImg P1 x1)) p
      = FloatOps.absf (F := Ideal) (φ := .f32)
          (code (nbs4 P0 (p 0) (p 1) (p 2) (p 3)) (x0 p) * scale - code (nbs4 P1 (p 0) (p 1) (p 2) (p 3)) (x1 p) * scale) := by
  show FloatOps.hostAbsf (codeImg P0 x0 p - codeImg P1 x1 p) = _
  rw [Ideal.hostAbsf_def, codeImg_apply, codeImg_apply]

/-- Adding up all of an image-shaped array from zero and taking the square root: the root of zero plus the sum over every pixel. -/
theorem sqrt_total (y : FVec Ideal S16x3x512x512 .f32) (j : S_.Idx) :
    Host.sqrt (Host.reduceAdd y (constant (F := Ideal) S_ .f32 0x00000000#32) reducesTo_S16x3x512x512_S_d0_1_2_3 h_S_) j
      = Ideal.sqrt (Ideal.ofBits .f32 0x00000000#32 + ∑ p : S16x3x512x512.Idx, y p) := by
  show FloatOps.hostUnary (F := Ideal) (φ := .f32) .sqrt
      (Ideal.hostReduceAdd reducesTo_S16x3x512x512_S_d0_1_2_3 y (Ideal.ofBits .f32 0x00000000#32) j) = _
  rw [Ideal.hostUnary_sqrt_def, Ideal.hostReduceAdd_total reducesTo_S16x3x512x512_S_d0_1_2_3 (fun b => b.elim0)]

/-- The last five operations: the two images' scaled codes subtracted, absolute values, everything added to zero, the square
    root. -/
theorem total_eq (P0 P1 : FVec Ideal S16x3x514x514 .f32) (x0 x1 : FVec Ideal S16x3x512x512 .f32) :
    Host.sqrt (Host.reduceAdd (Host.absf (subf (codeImg P0 x0) (codeImg P1 x1))) (constant (F := Ideal) S_ .f32 0x00000000#32)
        reducesTo_S16x3x512x512_S_d0_1_2_3 h_S_)
      = fun _ => totalScaledFirst P0 P1 x0 x1 := by
  funext j
  rw [sqrt_total, Finset.sum_congr rfl (fun p _ => absdiff_apply P0 P1 x0 x1 p)]
  rfl

end AtIdeal

section TheLine

variable (V : Valuation τ sig (Elt Ideal))

/-- What the line leaves in its last buffer: the total in the form that scales every code before subtracting, of the two
    images and their padded copies. -/
theorem value : after ops V (Proc.devRef .tc main_v107)
    = fun _ => totalScaledFirst (Cert.Lbp.pad (F := Ideal) (V (Proc.devRef .tc main_arg0))) (Cert.Lbp.pad (F := Ideal) (V (Proc.devRef .tc main_arg1)))
        (V (Proc.devRef .tc main_arg0)) (V (Proc.devRef .tc main_arg1)) := by
  stepU V 160; stepB V 159; stepN V 158; stepU V 157; stepB V 156
  rw [code0 V, code1 V]
  exact total_eq _ _ _ _

/-- The line leaves the two images as they were. -/
theorem arg0_kept : after ops V (Proc.devRef .tc main_arg0) = V (Proc.devRef .tc main_arg0) :=
  writes.arg V (by decide : main_arg0 ∉ W)
theorem arg1_kept : after ops V (Proc.devRef .tc main_arg1) = V (Proc.devRef .tc main_arg1) :=
  writes.arg V (by decide : main_arg1 ∉ W)

end TheLine

end Cert.Lbp.Ref

end
-- ==== Proof.LbpRefRun.lean ====
/-
  The reference program's run: from any memory, every weakly fair execution ends, nothing faults, and the last buffer holds
  the texture distance of the two images (in the form that scales every code before subtracting), the images themselves
  unchanged. The program is a straight line of array operations, so its run is the line's fold over the launch contents;
  the value of that fold at the last buffer and at the two images is read in the value module.
-/
import proofs.«133845_j39152921870850_2_alg».proof.Proof.LbpRefValue

noncomputable section

namespace Cert.Lbp.Ref

open Cert.ReferenceIdeal Idealize.ShloMosaic Idealize.ShloMosaic.TcCoe Idealize.SL.Sem Idealize.ShloMosaic.StableHlo

/-- On every device, from any memory with zero counters: every weakly fair execution of the reference terminates with its
    result at the total of the two images and their padded copies, and the images unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v107)
            = (fun _ => Cert.Lbp.totalScaledFirst
                (Cert.Lbp.pad (F := Ideal) (m' ((c.tc : Thread Cert.ReferenceIdeal.nD Cert.ReferenceIdeal.τ).loc Cert.ReferenceIdeal.main_arg0)))
                (Cert.Lbp.pad (F := Ideal) (m' ((c.tc : Thread Cert.ReferenceIdeal.nD Cert.ReferenceIdeal.τ).loc Cert.ReferenceIdeal.main_arg1)))
                (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c main_v107).trans (value (launchContents m' c)),
      (h c main_arg0).trans (arg0_kept (launchContents m' c)),
      (h c main_arg1).trans (arg1_kept (launchContents m' c))⟩)
    (run_seq scopedRefs_eq scopedSems_eq defs main (fun _ => ops) main_eq (fun _ => ops_sub) m' ρ' (fun _ => ops_fresh))

end Cert.Lbp.Ref

end
-- ==== Proof.lean ====
/-
  A texture distance between two stacks of image planes, computed two ways.

  Around every pixel the eight neighbours, read from a copy of the plane padded by one mirrored pixel on each side,
  are compared with the pixel; neighbour k adds 2^k to the pixel's code when it is at least the pixel. The distance
  is the square root of the sum, over every pixel of all 16·3 planes, of the absolute difference of the two stacks'
  codes, scaled by the single-precision number nearest 1/255.

  The first program pads on the host, lists the 48 padded planes one after the other, and visits them one per grid
  point: each point subtracts the two codes, scales the absolute value, adds along lanes, then rows, and adds the
  plane's share to a running total that the first point starts at zero and the last point takes the square root of.
  The second program scales each code first, subtracts, and adds all pixels in one sum. It reads the pixel from the
  image, the first from the middle of the padded plane.

  Read over the extended reals the two agree: a comparison contributes 0 or 1 and the weights and the scale are
  finite and non-negative, so codes are finite and |a·s − b·s| = |a − b|·s; the middle of the padded image is the
  image; and a finite sum may be taken plane by plane. No step uses that the inputs are finite.

  Both programs' padding is the same chain of slices, reversals and joins (LbpPad); its middle is read in
  LbpInterior; the agreement of the two totals is LbpLaw; the first program's run ends at the plane-by-plane total
  (LbpKernelRun, over the body's arithmetic read in LbpShareValue) and the second's at the one-sum total (LbpRefRun).
-/
import proofs.«133845_j39152921870850_2_alg».proof.Defs
import proofs.«133845_j39152921870850_2_alg».proof.Proof.Gen.Kernel
import proofs.«133845_j39152921870850_2_alg».proof.Proof.Gen.Kernel.Frame
import proofs.«133845_j39152921870850_2_alg».proof.Proof.Gen.KernelIdeal
import proofs.«133845_j39152921870850_2_alg».proof.Proof.Gen.KernelIdeal.Frame
import proofs.«133845_j39152921870850_2_alg».proof.Proof.Gen.ReferenceIdeal
import proofs.«133845_j39152921870850_2_alg».proof.Proof.Gen.Pre_finite_inputs
import proofs.«133845_j39152921870850_2_alg».proof.Proof.LbpLaw
import proofs.«133845_j39152921870850_2_alg».proof.Proof.LbpKernelRun
import proofs.«133845_j39152921870850_2_alg».proof.Proof.LbpRefRun

noncomputable section

namespace Cert.Proof

open Idealize.ShloMosaic Idealize.SL.Sem

/-- The first program's two frames are its runs with the result forgotten; the second's is its run with the result
    dropped. The idealization rewrote nothing. From memories agreeing on the two stacks, the first program ends at
    the plane-by-plane total of the padded planes and the second at the one-sum total of the padded images and the
    images, which are equal because the middle of each padded image is its image. -/
theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · intro m ρ _
    exact (θ_run Cert.ReferenceIdeal.defs _ _).mono (fun _ h c => (h c).2) (Cert.Lbp.Ref.run m ρ)
  · intro m ρ m' ρ' _ hagree
    refine ⟨fun c => fun _ => Cert.Lbp.totalByPlanes
        (Cert.Lbp.planes (F := Ideal) (Cert.Lbp.pad (F := Ideal) (m ((c.tc : Thread Cert.KernelIdeal.nD Cert.KernelIdeal.τ).loc Cert.KernelIdeal.main_arg0))))
        (Cert.Lbp.planes (F := Ideal) (Cert.Lbp.pad (F := Ideal) (m ((c.tc : Thread Cert.KernelIdeal.nD Cert.KernelIdeal.τ).loc Cert.KernelIdeal.main_arg1)))),
      Cert.Lbp.Ker.run m ρ, ?_⟩
    refine (θ_run Cert.ReferenceIdeal.defs _ _).mono (fun _ h c => ⟨(h c).1.trans ?_, (h c).2⟩) (Cert.Lbp.Ref.run m' ρ')
    rw [(hagree c).1, (hagree c).2]
    exact funext fun _ => (Cert.Lbp.totals_agree _ _ _ _
      (Cert.Lbp.pad_interior (F := Ideal) _) (Cert.Lbp.pad_interior (F := Ideal) _)).symm⟩

end Cert.Proof

end
